-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S512x64x1024 : Shape := ⟨3, ![512, 64, 1024]⟩
abbrev S4096x1024 : Shape := ⟨2, ![4096, 1024]⟩
abbrev S16x4096 : Shape := ⟨2, ![16, 4096]⟩
abbrev S1024x4096 : Shape := ⟨2, ![1024, 4096]⟩
abbrev S16x1024 : Shape := ⟨2, ![16, 1024]⟩
abbrev S1024 : Shape := ⟨1, ![1024]⟩
abbrev S_ : Shape := ⟨0, ![]⟩

class Facts : Prop where
  bcast_S_S512x64x1024 : S_.BroadcastsInDim S512x64x1024 (![] : Fin 0 → Fin S512x64x1024.rank)
  reducesTo_S512x64x1024_S_d0_1_2 : S512x64x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S16x4096 : S_.BroadcastsInDim S16x4096 (![] : Fin 0 → Fin S16x4096.rank)
  reducesTo_S16x4096_S_d0_1 : S16x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S16x1024 .f32) (main_arg6 : FVec F S1024 .f32) (main_arg7 : FVec F S16x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S16x1024 .f32 := Host.absf main_arg5
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S16x1024 .f32 := Host.absf main_arg7
  let main_cst_10 : FVec F S_ .f32 := constant S_ .f32 0x7F800000#32
  let main_v30 : FVec F S16x1024 .f32 := broadcastInDim S16x1024 ![] bcast_S_S16x1024 main_cst_10
  let main_v31 : IVec S16x1024 1 := cmpf .olt main_v29 main_v30
  let main_c_11 : IVec S_ 1 := constantI S_ 1 1#1
  let main_v32 : IVec S_ 1 := (fun x v => Host.reduce IntOp.andi x v reducesTo_S16x1024_S_d0_1 h_S_) main_v31 main_c_11
  let main_v33 : IVec S_ 1 := andi main_v28 main_v32
  main_v33

def fn {F : FTy → Type} [FloatOps F] (main_arg0 : IVec S64 32) (main_arg1 : FVec F S512x64x1024 .f32) (main_arg2 : FVec F S4096x1024 .f32) (main_arg3 : FVec F S16x4096 .f32) (main_arg4 : FVec F S1024x4096 .f32) (main_arg5 : FVec F S16x1024 .f32) (main_arg6 : FVec F S1024 .f32) (main_arg7 : FVec F S16x1024 .f32) : IVec S_ 1 :=
  let main_v0 : FVec F S512x64x1024 .f32 := Host.absf main_arg1
  let main_cst : FVec F S_ .f32 := constant S_ .f32 0x7F800000#32
  let main_v1 : FVec F S512x64x1024 .f32 := broadcastInDim S512x64x1024 ![] bcast_S_S512x64x1024 main_cst
  let main_v2 : IVec S512x64x1024 1 := cmpf .olt main_v0 main_v1
  let main_c : IVec S_ 1 := constantI S_ 1 1#1
  let main_v3 : IVec S_ 1 := (fun x v => Host.reduce IntOp.andi x v reducesTo_S512x64x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_arg6 main_arg7 main_v13 main_v16
-- ==== Kernel.lean ====
abbrev S64 : Shape := ⟨1, ![64]⟩
abbrev S512x64x1024 : Shape := ⟨3, ![512, 64, 1024]⟩
abbrev S4096x1024 : Shape := ⟨2, ![4096, 1024]⟩
abbrev S16x4096 : Shape := ⟨2, ![16, 4096]⟩
abbrev S1024x4096 : Shape := ⟨2, ![1024, 4096]⟩
abbrev S16x1024 : Shape := ⟨2, ![16, 1024]⟩
abbrev S1024 : Shape := ⟨1, ![1024]⟩
abbrev S_ : Shape := ⟨0, ![]⟩
abbrev S64x1 : Shape := ⟨2, ![64, 1]⟩
abbrev S64x4096 : Shape := ⟨2, ![64, 4096]⟩
abbrev S64x1024 : Shape := ⟨2, ![64, 1024]⟩
abbrev S1x1024 : Shape := ⟨2, ![1, 1024]⟩
abbrev S32768x1024 : Shape := ⟨2, ![32768, 1024]⟩
abbrev S1024x1024 : Shape := ⟨2, ![1024, 1024]⟩
abbrev S1024x512 : Shape := ⟨2, ![1024, 512]⟩
abbrev S64x512 : Shape := ⟨2, ![64, 512]⟩
abbrev S512x1024 : Shape := ⟨2, ![512, 1024]⟩
abbrev S16x64x512 : Shape := ⟨3, ![16, 64, 512]⟩
abbrev S1x64x512 : Shape := ⟨3, ![1, 64, 512]⟩
abbrev S16x64x1024 : Shape := ⟨3, ![16, 64, 1024]⟩
abbrev S1x64x1024 : Shape := ⟨3, ![1, 64, 1024]⟩
abbrev S1024x1 : Shape := ⟨2, ![1024, 1]⟩

abbrev nBuf : Space → Nat
  | .hbm => 43
  | .vmem => 14
  | .smem => 0
  | _ => 0

abbrev bufTy : (tb : Table) → Fin (tcTables nBuf tb) → BufTy
  | .hbm, ⟨0, _⟩ => ⟨S64, .i32⟩
  | .hbm, ⟨1, _⟩ => ⟨S512x64x1024, .f32⟩
  | .hbm, ⟨2, _⟩ => ⟨S4096x1024, .f32⟩
  | .hbm, ⟨3, _⟩ => ⟨S16x4096, .f32⟩
  | .hbm, ⟨4, _⟩ => ⟨S1024x4096, .f32⟩
  | .hbm, ⟨5, _⟩ => ⟨S16x1024, .f32⟩
  | .hbm, ⟨6, _⟩ => ⟨S1024, .f32⟩
  | .hbm, ⟨7, _⟩ => ⟨S16x1024, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x4096, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1024, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1024, .f32⟩
  | .hbm, ⟨35, _⟩ => ⟨S1024x4096, .f32⟩
  | .hbm, ⟨36, _⟩ => ⟨S1024x4096, .bf16⟩
  | .hbm, ⟨37, _⟩ => ⟨S4096x1024, .f32⟩
  | .hbm, ⟨38, _⟩ => ⟨S4096x1024, .bf16⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S512x64x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S64x512, .f32⟩
  | .local _ .vmem, ⟨5, _⟩ => ⟨S64x512, .f32⟩
  | .local _ .vmem, ⟨6, _⟩ => ⟨S512x1024, .bf16⟩
  | .local _ .vmem, ⟨7, _⟩ => ⟨S512x1024, .bf16⟩
  | .local _ .vmem, ⟨8, _⟩ => ⟨S64x1024, .f32⟩
  | .local _ .vmem, ⟨9, _⟩ => ⟨S1x1024, .f32⟩
  | .local _ .vmem, ⟨10, _⟩ => ⟨S64x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S64 : S_.BroadcastsInDim S64 (![] : Fin 0 → Fin S64.rank)
  bcast_S64_S64x1_0 : S64.BroadcastsInDim S64x1 (![0] : Fin 1 → Fin S64x1.rank)
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  shapeCasts_S1024_S1x1024 : S1024.ShapeCasts S1x1024
  shapeCasts_S512x64x1024_S32768x1024 : S512x64x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S1024x512_S16x64x512 : S1024x512.ShapeCasts S16x64x512
  shapeCasts_S64x512_S1x64x512 : S64x512.ShapeCasts S1x64x512
  broadcasts_S1x64x512_S16x64x512 : S1x64x512.Broadcasts S16x64x512
  shapeCasts_S16x64x512_S1024x512 : S16x64x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S1024x1024_S16x64x1024 : S1024x1024.ShapeCasts S16x64x1024
  shapeCasts_S64x1024_S1x64x1024 : S64x1024.ShapeCasts S1x64x1024
  broadcasts_S1x64x1024_S16x64x1024 : S1x64x1024.Broadcasts S16x64x1024
  shapeCasts_S16x64x1024_S1024x1024 : S16x64x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S512x64x1024 : S32768x1024.ShapeCasts S512x64x1024
  gather_S16x4096_S64x1_S64x4096_1_0_n_n_0_1_14096_wf : GatherDims.WF S16x4096 S64x1 S64x4096 [1] [0] [] [0] [] 1 ![1, 4096]
  gather_S16x1024_S64x1_S64x1024_1_0_n_n_0_1_11024_wf : GatherDims.WF S16x1024 S64x1 S64x1024 [1] [0] [] [0] [] 1 ![1, 1024]
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .bf16 = 32 ∨ (Rect.block (s := S1024x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x4096.size a
  hwx0_2 : ∀ i : grid0.Coords, EltTy.bits .f32 = 32 ∨ (Rect.block (s := S64x4096) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .f32 = 32 ∨ (Rect.block (s := S64x1024) S64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S32768x1024.size a
  hwx0_7 : ∀ i : grid0.Coords, EltTy.bits .f32 = 32 ∨ (Rect.block (s := S32768x1024) S1024x1024.size (cc0_transform_7 i) (hinb0_7 i)).WholeWords (EltTy.packing .f32)

variable [Facts₀]

def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def gather_S16x1024_S64x1_S64x1024_1_0_n_n_0_1_11024 : GatherDims S16x1024 S64x1 S64x1024 where
  offsetDims := [1]
  collapsedSliceDims := [0]
  operandBatchingDims := []
  startIndicesBatchingDims := []
  startIndexMap := [0]
  indexVectorDim := 1
  sliceSizes := ![1, 1024]
  wf := gather_S16x1024_S64x1_S64x1024_1_0_n_n_0_1_11024_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v26) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64 : Shape := ⟨1, ![64]⟩
abbrev S512x64x1024 : Shape := ⟨3, ![512, 64, 1024]⟩
abbrev S4096x1024 : Shape := ⟨2, ![4096, 1024]⟩
abbrev S16x4096 : Shape := ⟨2, ![16, 4096]⟩
abbrev S1024x4096 : Shape := ⟨2, ![1024, 4096]⟩
abbrev S16x1024 : Shape := ⟨2, ![16, 1024]⟩
abbrev S1024 : Shape := ⟨1, ![1024]⟩
abbrev S_ : Shape := ⟨0, ![]⟩
abbrev S64x1 : Shape := ⟨2, ![64, 1]⟩
abbrev S64x4096 : Shape := ⟨2, ![64, 4096]⟩
abbrev S64x1024 : Shape := ⟨2, ![64, 1024]⟩
abbrev S512x64x4096 : Shape := ⟨3, ![512, 64, 4096]⟩
abbrev S1x64x4096 : Shape := ⟨3, ![1, 64, 4096]⟩
abbrev S1x64x1024 : Shape := ⟨3, ![1, 64, 1024]⟩
abbrev S512x64 : Shape := ⟨2, ![512, 64]⟩
abbrev S512x64x1 : Shape := ⟨3, ![512, 64, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S64, .i32⟩
  | .hbm, ⟨1, _⟩ => ⟨S512x64x1024, .f32⟩
  | .hbm, ⟨2, _⟩ => ⟨S4096x1024, .f32⟩
  | .hbm, ⟨3, _⟩ => ⟨S16x4096, .f32⟩
  | .hbm, ⟨4, _⟩ => ⟨S1024x4096, .f32⟩
  | .hbm, ⟨5, _⟩ => ⟨S16x1024, .f32⟩
  | .hbm, ⟨6, _⟩ => ⟨S1024, .f32⟩
  | .hbm, ⟨7, _⟩ => ⟨S16x1024, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x4096, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1024, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1024, .f32⟩
  | .hbm, ⟨35, _⟩ => ⟨S512x64x4096, .f32⟩
  | .hbm, ⟨36, _⟩ => ⟨S1x64x4096, .f32⟩
  | .hbm, ⟨37, _⟩ => ⟨S512x64x4096, .f32⟩
  | .hbm, ⟨38, _⟩ => ⟨S512x64x4096, .f32⟩
  | .hbm, ⟨39, _⟩ => ⟨S_, .f32⟩
  | .hbm, ⟨40, _⟩ => ⟨S512x64x4096, .f32⟩
  | .hbm, ⟨41, _⟩ => ⟨S512x64x4096, .f32⟩
  | .hbm, ⟨42, _⟩ => ⟨S512x64x1024, .f32⟩
  | .hbm, ⟨43, _⟩ => ⟨S512x64x1024, .f32⟩
  | .hbm, ⟨44, _⟩ => ⟨S1x64x1024, .f32⟩
  | .hbm, ⟨45, _⟩ => ⟨S512x64x1024, .f32⟩
  | .hbm, ⟨46, _⟩ => ⟨S512x64x1024, .f32⟩
  | .hbm, ⟨47, _⟩ => ⟨S_, .f32⟩
  | .hbm, ⟨48, _⟩ => ⟨S512x64, .f32⟩
  | .hbm, ⟨49, _⟩ => ⟨S512x64x1, .f32⟩
  | .hbm, ⟨50, _⟩ => ⟨S_, .f32⟩
  | .hbm, ⟨51, _⟩ => ⟨S512x64x1, .f32⟩
  | .hbm, ⟨52, _⟩ => ⟨S512x64x1, .f32⟩
  | .hbm, ⟨53, _⟩ => ⟨S512x64x1024, .f32⟩
  | .hbm, ⟨54, _⟩ => ⟨S512x64x1024, .f32⟩
  | .hbm, ⟨55, _⟩ => ⟨S512x64x1024, .f32⟩
  | .hbm, ⟨56, _⟩ => ⟨S_, .f32⟩
  | .hbm, ⟨57, _⟩ => ⟨S512x64, .f32⟩
  | .hbm, ⟨58, _⟩ => ⟨S512x64x1, .f32⟩
  | .hbm, ⟨59, _⟩ => ⟨S_, .f32⟩
  | .hbm, ⟨60, _⟩ => ⟨S512x64x1, .f32⟩
  | .hbm, ⟨61, _⟩ => ⟨S512x64x1, .f32⟩
  | .hbm, ⟨62, _⟩ => ⟨S512x64x1024, .f32⟩
  | .hbm, ⟨63, _⟩ => ⟨S512x64x1024, .f32⟩
  | .hbm, ⟨64, _⟩ => ⟨S_, .f32⟩
  | .hbm, ⟨65, _⟩ => ⟨S512x64x1, .f32⟩
  | .hbm, ⟨66, _⟩ => ⟨S512x64x1, .f32⟩
  | .hbm, ⟨67, _⟩ => ⟨S512x64x1, .f32⟩
  | .hbm, ⟨68, _⟩ => ⟨S512x64x1024, .f32⟩
  | .hbm, ⟨69, _⟩ => ⟨S512x64x1024, .f32⟩
  | .hbm, ⟨70, _⟩ => ⟨S1x1x1024, .f32⟩
  | .hbm, ⟨71, _⟩ => ⟨S512x64x1024, .f32⟩
  | .hbm, ⟨72, _⟩ => ⟨S512x64x1024, .f32⟩
  | .hbm, ⟨73, _⟩ => ⟨S1x64x1024, .f32⟩
  | .hbm, ⟨74, _⟩ => ⟨S512x64x1024, .f32⟩
  | .hbm, ⟨75, _⟩ => ⟨S512x64x1024, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x4096_S1x64x4096_1_2 : S64x4096.BroadcastsInDim S1x64x4096 (![1, 2] : Fin 2 → Fin S1x64x4096.rank)
  bcast_S1x64x4096_S512x64x4096_0_1_2 : S1x64x4096.BroadcastsInDim S512x64x4096 (![0, 1, 2] : Fin 3 → Fin S512x64x4096.rank)
  bcast_S_S512x64x4096 : S_.BroadcastsInDim S512x64x4096 (![] : Fin 0 → Fin S512x64x4096.rank)
  bcast_S64x1024_S1x64x1024_1_2 : S64x1024.BroadcastsInDim S1x64x1024 (![1, 2] : Fin 2 → Fin S1x64x1024.rank)
  bcast_S1x64x1024_S512x64x1024_0_1_2 : S1x64x1024.BroadcastsInDim S512x64x1024 (![0, 1, 2] : Fin 3 → Fin S512x64x1024.rank)
  reducesTo_S512x64x1024_S512x64_d2 : S512x64x1024.ReducesTo [2] S512x64
  h_S_ : 0 < S_.numel
  bcast_S512x64_S512x64x1_0_1 : S512x64.BroadcastsInDim S512x64x1 (![0, 1] : Fin 2 → Fin S512x64x1.rank)
  bcast_S_S512x64x1 : S_.BroadcastsInDim S512x64x1 (![] : Fin 0 → Fin S512x64x1.rank)
  bcast_S512x64x1_S512x64x1024_0_1_2 : S512x64x1.BroadcastsInDim S512x64x1024 (![0, 1, 2] : Fin 3 → Fin S512x64x1024.rank)
  bcast_S1024_S1x1x1024_2 : S1024.BroadcastsInDim S1x1x1024 (![2] : Fin 1 → Fin S1x1x1024.rank)
  bcast_S1x1x1024_S512x64x1024_0_1_2 : S1x1x1024.BroadcastsInDim S512x64x1024 (![0, 1, 2] : Fin 3 → Fin S512x64x1024.rank)
  gather_S16x4096_S64x1_S64x4096_1_0_n_n_0_1_14096_wf : GatherDims.WF S16x4096 S64x1 S64x4096 [1] [0] [] [0] [] 1 ![1, 4096]
  gather_S16x1024_S64x1_S64x1024_1_0_n_n_0_1_11024_wf : GatherDims.WF S16x1024 S64x1 S64x1024 [1] [0] [] [0] [] 1 ![1, 1024]
  dot_S512x64x1024_S4096x1024_S512x64x4096_2_1_01_0_n_n_wf : DotDims.WF S512x64x1024 S4096x1024 S512x64x4096 [2] [1] [0, 1] [0] [] []
  dot_S512x64x4096_S1024x4096_S512x64x1024_2_1_01_0_n_n_wf : DotDims.WF S512x64x4096 S1024x4096 S512x64x1024 [2] [1] [0, 1] [0] [] []

variable [Facts₀]

def gather_S16x4096_S64x1_S64x4096_1_0_n_n_0_1_14096 : GatherDims S16x4096 S64x1 S64x4096 where
  offsetDims := [1]
  collapsedSliceDims := [0]
  operandBatchingDims := []
  startIndicesBatchingDims := []
  startIndexMap := [0]
  indexVectorDim := 1
  sliceSizes := ![1, 4096]
  wf := gather_S16x4096_S64x1_S64x4096_1_0_n_n_0_1_14096_wf
def gather_S16x1024_S64x1_S64x1024_1_0_n_n_0_1_11024 : GatherDims S16x1024 S64x1 S64x1024 where
  offsetDims := [1]
  collapsedSliceDims := [0]
  operandBatchingDims := []
  startIndicesBatchingDims := []
  startIndexMap := [0]
  indexVectorDim := 1
  sliceSizes := ![1, 1024]
  wf := gather_S16x1024_S64x1_S64x1024_1_0_n_n_0_1_11024_wf
def dot_S512x64x1024_S4096x1024_S512x64x4096_2_1_01_0_n_n : DotDims S512x64x1024 S4096x1024 S512x64x4096 where
  lhsContracting := [2]
  rhsContracting := [1]
  lhsNonContracting := [0, 1]
  rhsNonContracting := [0]
  lhsBatch := []
  rhsBatch := []
  wf := dot_S512x64x1024_S4096x1024_S512x64x4096_2_1_01_0_n_n_wf
def dot_S512x64x4096_S1024x4096_S512x64x1024_2_1_01_0_n_n : DotDims S512x64x4096 S1024x4096 S512x64x1024 where
  lhsContracting := [2]
  rhsContracting := [1]
  lhsNonContracting := [0, 1]
  rhsNonContracting := [0]
  lhsBatch := []
  rhsBatch := []
  wf := dot_S512x64x4096_S1024x4096_S512x64x1024_2_1_01_0_n_n_wf

class Facts : Prop extends Facts₀ where

variable [Facts]
-- ==== Proof.LibResetSum.lean ====
/-
  Two laws about sums taken in pieces, in any commutative additive monoid (so they hold on the extended reals, with
  their infinities, exactly as on the reals: only associativity and commutativity of addition are used).

  1. Tiling. The sum of the first A * B terms of a sequence is the sum, over A consecutive tiles, of each tile's B terms.

  2. A running total with periodic reset. Walk the steps 0, 1, 2, … keeping a running total that is RESET at every
     step divisible by P (there it becomes that step's term alone) and otherwise grows by the step's term. Then at the
     j-th step of the q-th period the total is the sum of that period's first j + 1 terms; in particular, at a period's
     last step it is the sum of the period's P terms. This is what an accumulator carried along the inner axis of a
     two-axis grid holds when it is cleared at the start of every row of the grid.
-/
import Mathlib.Algebra.BigOperators.Fin

open Finset

namespace Cert.ResetSum

variable {M : Type*} [AddCommMonoid M]

/-- Tiling: the first `A * B` terms, summed tile by tile. -/
theorem sum_range_mul (A B : ℕ) (g : ℕ → M) :
    ∑ n ∈ range (A * B), g n = ∑ a ∈ range A, ∑ b ∈ range B, g (a * B + b) := by
  induction A with
  | zero => rw [Nat.zero_mul, range_zero, sum_empty, sum_empty]
  | succ A ih => rw [Nat.succ_mul, sum_range_add, ih, sum_range_succ]

/-- The running total that is reset at every step divisible by `P`. -/
def resetAcc (P : ℕ) (f : ℕ → M) : ℕ → M
  | 0 => f 0
  | n + 1 => if (n + 1) % P = 0 then f (n + 1) else resetAcc P f n + f (n + 1)

/-- At a step divisible by the period the total is that step's term. -/
theorem resetAcc_of_dvd (P : ℕ) (f : ℕ → M) (n : ℕ) (h : n % P = 0) : resetAcc P f n = f n := by
  cases n with
  | zero => rfl
  | succ n => exact if_pos h

/-- At any other step it grows by that step's term. -/
theorem resetAcc_succ (P : ℕ) (f : ℕ → M) (n : ℕ) (h : ¬(n + 1) % P = 0) :
    resetAcc P f (n + 1) = resetAcc P f n + f (n + 1) := if_neg h

/-- Within a period: at its `j`-th step the total is the sum of the period's first `j + 1` terms. -/
theorem resetAcc_period (P : ℕ) (f : ℕ → M) (q : ℕ) :
    ∀ j, j < P → resetAcc P f (q * P + j) = ∑ k ∈ range (j + 1), f (q * P + k)
  | 0, _ => by
    rw [resetAcc_of_dvd P f _ (by rw [Nat.add_zero, Nat.mul_mod_left]), sum_range_one]
  | j + 1, hj => by
    have hne : ¬(q * P + j + 1) % P = 0 := by
      rw [Nat.add_assoc, Nat.mul_add_mod', Nat.mod_eq_of_lt hj]; exact Nat.succ_ne_zero j
    rw [← Nat.add_assoc, resetAcc_succ P f _ hne, resetAcc_period P f q j (Nat.lt_of_succ_lt hj),
      sum_range_succ _ (j + 1), Nat.add_assoc]

/-- At a period's last step: the sum of the period's `P` terms. -/
theorem resetAcc_last (P : ℕ) (hP : 0 < P) (f : ℕ → M) (q : ℕ) :
    resetAcc P f (q * P + (P - 1)) = ∑ k ∈ range P, f (q * P + k) := by
  rw [resetAcc_period P f q (P - 1) (Nat.sub_lt hP Nat.one_pos), Nat.sub_add_cancel hP]

end Cert.ResetSum
-- ==== Proof.Layer.lean ====
/-
  One row of the layer, as plain functions over finite index types on the extended reals.

  A row `x` (1024 numbers) is sent through a hidden layer of 4096 units, unit `h` being
  `max (∑ k, x k * W₁ h k + β₁ h) 0`; the hidden row is contracted with `W₂`, the input row and a bias are
  added back, and the 1024 results are normalized: with `μ` their mean and `σ²` the mean of the squared
  deviations from `μ`, entry `d` becomes `(y d - μ) * rsqrt (σ² + ε) * γ d + β₃ d`.
  The three float literals (zero, 1024 and ε) stay words: both programs print the same words, so they are
  never evaluated.
-/
import Idealize.ShloMosaic.PureOps.Ideal
import Mathlib.Algebra.BigOperators.Fin
import proofs.«182033_j11184094839027_2_alg».proof.Proof.LibResetSum

noncomputable section

namespace Cert.Layer

open Idealize.ShloMosaic Finset

/-- The word of `+0.0`. -/
abbrev zeroW : EReal := Ideal.ofBits .f32 0x00000000#32
/-- The word of `1024.0`, the row length the two means divide by. -/
abbrev lenW : EReal := Ideal.ofBits .f32 0x44800000#32
/-- The word of the `ε` added to the variance. -/
abbrev epsW : EReal := Ideal.ofBits .f32 0x3727C5AC#32

/-- Hidden unit `h` of a row: the rectified affine form. -/
def hidden (x : Fin 1024 → EReal) (W₁ : Fin 4096 → Fin 1024 → EReal) (β₁ : Fin 4096 → EReal) (h : Fin 4096) : EReal :=
  max ((∑ k : Fin 1024, x k * W₁ h k) + β₁ h) zeroW

/-- The mean of a row. -/
def mean (y : Fin 1024 → EReal) : EReal := Ideal.div (∑ k : Fin 1024, y k) lenW

/-- The mean of the squared deviations from the mean. -/
def variance (y : Fin 1024 → EReal) : EReal :=
  Ideal.div (∑ k : Fin 1024, (y k - mean y) * (y k - mean y)) lenW

/-- The normalized row, scaled and shifted. -/
def normalize (y γ β₃ : Fin 1024 → EReal) (d : Fin 1024) : EReal :=
  (y d - mean y) * Ideal.rsqrt (variance y + epsW) * γ d + β₃ d

/-- The row before normalization: input, second contraction, bias. -/
def residual (x : Fin 1024 → EReal) (W₁ : Fin 4096 → Fin 1024 → EReal) (β₁ : Fin 4096 → EReal)
    (W₂ : Fin 1024 → Fin 4096 → EReal) (β₂ : Fin 1024 → EReal) (d : Fin 1024) : EReal :=
  x d + (∑ h : Fin 4096, hidden x W₁ β₁ h * W₂ d h) + β₂ d

/-- The whole row. -/
def row (x : Fin 1024 → EReal) (W₁ : Fin 4096 → Fin 1024 → EReal) (β₁ : Fin 4096 → EReal)
    (W₂ : Fin 1024 → Fin 4096 → EReal) (β₂ γ β₃ : Fin 1024 → EReal) : Fin 1024 → EReal :=
  normalize (residual x W₁ β₁ W₂ β₂) γ β₃

/-- A sum over 4096 terms taken as 8 consecutive tiles of 512: only associativity and commutativity of `+`. -/
theorem sum_tiles (f : Fin 4096 → EReal) :
    ∑ h : Fin 4096, f h
      = ∑ s ∈ range 8, ∑ j : Fin 512, (if hh : s * 512 + j.val < 4096 then f ⟨s * 512 + j.val, hh⟩ else 0) := by
  have e : ∑ h : Fin 4096, f h = ∑ n ∈ range (8 * 512), (if hh : n < 4096 then f ⟨n, hh⟩ else 0) := by
    rw [show (8 * 512 : ℕ) = 4096 from rfl, Finset.sum_range]
    exact Finset.sum_congr rfl fun h _ => by rw [dif_pos h.isLt]
  rw [e, Cert.ResetSum.sum_range_mul 8 512 (fun n => if hh : n < 4096 then f ⟨n, hh⟩ else 0)]
  exact Finset.sum_congr rfl fun s _ => by rw [Finset.sum_range]

end Cert.Layer

end
-- ==== Proof.Spec.lean ====
/-
  The result of the task-specific feed-forward layer as ONE function of the argument arrays.

  Entry `(s, b, d)` of the result is entry `d` of the layer (Layer.lean) applied to row `(s, b)` of `x`,
  with the biases of batch element `b`: the three bias arrays enter already gathered by task
  (64 rows each, one per batch element), since both programs gather them by the same host operations.
-/
import Idealize.ShloMosaic.PureOps.Ideal
import Idealize.ShloMosaic.Lib.ValueIdx
import proofs.«182033_j11184094839027_2_alg».proof.Proof.Layer

noncomputable section

namespace Cert.Spec

open Idealize.ShloMosaic Idealize.ShloMosaic.ValueIdx

/-- The result array, index by index. -/
def result (X : (⟨3, ![512, 64, 1024]⟩ : Shape).Idx → EReal) (W1 : (⟨2, ![4096, 1024]⟩ : Shape).Idx → EReal)
    (B1 : (⟨2, ![64, 4096]⟩ : Shape).Idx → EReal) (W2 : (⟨2, ![1024, 4096]⟩ : Shape).Idx → EReal)
    (B2 : (⟨2, ![64, 1024]⟩ : Shape).Idx → EReal) (Γ : (⟨1, ![1024]⟩ : Shape).Idx → EReal)
    (B3 : (⟨2, ![64, 1024]⟩ : Shape).Idx → EReal) : (⟨3, ![512, 64, 1024]⟩ : Shape).Idx → EReal := fun i =>
  Cert.Layer.row (fun k => X (ix3 (i 0) (i 1) k)) (fun h k => W1 (ix2 h k)) (fun h => B1 (ix2 (i 1) h))
    (fun d h => W2 (ix2 d h)) (fun d => B2 (ix2 (i 1) d)) (fun d => Γ (ix1 d)) (fun d => B3 (ix2 (i 1) d)) (i 2)

end Cert.Spec

end
-- ==== Proof.RowSpec.lean ====
/-
  The layer over the batch of rows laid out as ONE matrix.

  The 512 × 64 rows of `x` are stacked into a 32768 × 1024 matrix, row `r` being row `(r / 64, r % 64)`, so
  that row `r` belongs to batch element `r % 64`; the two weight matrices enter transposed (the contraction
  index first for `W₁ᵀ`, the hidden index first for `W₂ᵀ`) and the scale as a 1 × 1024 row.
  Entry `(r, d)` is entry `d` of the layer (Layer.lean) on row `r`.
-/
import Idealize.ShloMosaic.PureOps.Ideal
import Idealize.ShloMosaic.Lib.ValueIdx
import proofs.«182033_j11184094839027_2_alg».proof.Proof.Layer

noncomputable section

namespace Cert.RowSpec

open Idealize.ShloMosaic Idealize.ShloMosaic.ValueIdx

/-- The batch element of stacked row `r`. -/
abbrev bRow (r : Fin 32768) : Fin 64 := ⟨r.val % 64, Nat.mod_lt _ (by decide)⟩

/-- The stacked result, index by index. -/
def rows (X2 : (⟨2, ![32768, 1024]⟩ : Shape).Idx → EReal) (W1T : (⟨2, ![1024, 4096]⟩ : Shape).Idx → EReal)
    (B1 : (⟨2, ![64, 4096]⟩ : Shape).Idx → EReal) (W2T : (⟨2, ![4096, 1024]⟩ : Shape).Idx → EReal)
    (B2 : (⟨2, ![64, 1024]⟩ : Shape).Idx → EReal) (Γ2 : (⟨2, ![1, 1024]⟩ : Shape).Idx → EReal)
    (B3 : (⟨2, ![64, 1024]⟩ : Shape).Idx → EReal) : (⟨2, ![32768, 1024]⟩ : Shape).Idx → EReal := fun i =>
  Cert.Layer.row (fun k => X2 (ix2 (i 0) k)) (fun h k => W1T (ix2 k h)) (fun h => B1 (ix2 (bRow (i 0)) h))
    (fun d h => W2T (ix2 h d)) (fun d => B2 (ix2 (bRow (i 0)) d)) (fun d => Γ2 (ix2 (0 : Fin 1) d))
    (fun d => B3 (ix2 (bRow (i 0)) d)) (i 1)

end Cert.RowSpec

end
-- ==== Proof.Relayout.lean ====
/-
  The stacked matrix of rows, cut back into 512 groups of 64 rows, is the result array.

  Stacking sends row `(s, b)` of `x` to row `s * 64 + b` of a 32768 × 1024 matrix, and cutting the matrix back
  into a 512 × 64 × 1024 array reads its row `s * 64 + b` at `(s, b)`: both keep the row-major position.  Row
  `s * 64 + b` belongs to batch element `(s * 64 + b) % 64 = b`.  A transposed weight matrix read at `(k, h)` is
  the matrix at `(h, k)`, a change of number format is the identity on extended reals, and the scale laid out
  as a 1 × 1024 row reads at `(0, d)` its entry `d`.  So the seven arguments of the layer at stacked row
  `s * 64 + b` are its arguments at `(s, b)`.
-/
import Idealize.ShloMosaic.Lib.ValueIdx
import Idealize.ShloMosaic.Lib.Pipeline.Value
import Idealize.ShloMosaic.Lib.ValueLayout
import proofs.«182033_j11184094839027_2_alg».proof.Proof.RowSpec
import proofs.«182033_j11184094839027_2_alg».proof.Proof.Spec

noncomputable section

namespace Cert.Relayout

open Idealize.ShloMosaic Idealize.ShloMosaic.ValueIdx

/-- The stacked row of row `(s, b)`. -/
abbrev stack (s : Fin 512) (b : Fin 64) : Fin 32768 := ⟨s.val * 64 + b.val, by omega⟩

/-- Stacked row `s * 64 + b` belongs to batch element `b`. -/
theorem bRow_stack (s : Fin 512) (b : Fin 64) : Cert.RowSpec.bRow (stack s b) = b :=
  Fin.ext (by
    show (s.val * 64 + b.val) % 64 = b.val
    omega)

/-- The stacked `x` at `(s * 64 + b, k)` is `x` at `(s, b, k)`: the same row-major position. -/
theorem x_stacked {α : Type} (X : (⟨3, ![512, 64, 1024]⟩ : Shape).Idx → α)
    (hx : (⟨3, ![512, 64, 1024]⟩ : Shape).ShapeCasts ⟨2, ![32768, 1024]⟩) (s : Fin 512) (b : Fin 64) (k : Fin 1024) :
    shapeCast ⟨2, ![32768, 1024]⟩ X hx (ix2 (stack s b) k) = X (ix3 s b k) :=
  shapeCast_apply X hx _ _ (by
    rw [Shape.rowMajor_val_three, Shape.rowMajor_val_two]
    rfl)

/-- A matrix of stacked rows cut back into groups reads, at `(s, b, d)`, its entry `(s * 64 + b, d)`. -/
theorem unstacked {α : Type} (M : (⟨2, ![32768, 1024]⟩ : Shape).Idx → α)
    (ho : (⟨2, ![32768, 1024]⟩ : Shape).ShapeCasts ⟨3, ![512, 64, 1024]⟩) (s : Fin 512) (b : Fin 64) (d : Fin 1024) :
    shapeCast ⟨3, ![512, 64, 1024]⟩ M ho (ix3 s b d) = M (ix2 (stack s b) d) :=
  shapeCast_apply M ho _ _ (by
    rw [Shape.rowMajor_val_three, Shape.rowMajor_val_two]
    rfl)

/-- The first weight matrix, transposed and changed to the narrower format, at `(k, h)` is the matrix at `(h, k)`. -/
theorem w1_transposed (W1 : (⟨2, ![4096, 1024]⟩ : Shape).Idx → EReal)
    (h1 : (⟨2, ![4096, 1024]⟩ : Shape).Transposes [1, 0] ⟨2, ![1024, 4096]⟩) (hb : FTy.bf16.bits < FTy.f32.bits)
    (k : Fin 1024) (h : Fin 4096) :
    (truncf (F := Ideal) .bf16 (transpose ⟨2, ![1024, 4096]⟩ [1, 0] W1 h1 : FVec Ideal ⟨2, ![1024, 4096]⟩ .f32) hb) (ix2 k h)
      = W1 (ix2 h k) :=
  (truncf_apply _ hb _).trans (transpose_ix2_apply W1 h1 k h)

/-- The second weight matrix, transposed and changed to the narrower format, at `(h, d)` is the matrix at `(d, h)`. -/
theorem w2_transposed (W2 : (⟨2, ![1024, 4096]⟩ : Shape).Idx → EReal)
    (h2 : (⟨2, ![1024, 4096]⟩ : Shape).Transposes [1, 0] ⟨2, ![4096, 1024]⟩) (hb : FTy.bf16.bits < FTy.f32.bits)
    (h : Fin 4096) (d : Fin 1024) :
    (truncf (F := Ideal) .bf16 (transpose ⟨2, ![4096, 1024]⟩ [1, 0] W2 h2 : FVec Ideal ⟨2, ![4096, 1024]⟩ .f32) hb) (ix2 h d)
      = W2 (ix2 d h) :=
  (truncf_apply _ hb _).trans (transpose_ix2_apply W2 h2 h d)

/-- THE STACKED ROW MATRIX, CUT BACK INTO GROUPS, IS THE RESULT ARRAY. -/
theorem rows_reshaped
    (X : (⟨3, ![512, 64, 1024]⟩ : Shape).Idx → EReal) (W1 : (⟨2, ![4096, 1024]⟩ : Shape).Idx → EReal)
    (B1 : (⟨2, ![64, 4096]⟩ : Shape).Idx → EReal) (W2 : (⟨2, ![1024, 4096]⟩ : Shape).Idx → EReal)
    (B2 : (⟨2, ![64, 1024]⟩ : Shape).Idx → EReal) (Γ : (⟨1, ![1024]⟩ : Shape).Idx → EReal)
    (B3 : (⟨2, ![64, 1024]⟩ : Shape).Idx → EReal)
    (hx : (⟨3, ![512, 64, 1024]⟩ : Shape).ShapeCasts ⟨2, ![32768, 1024]⟩)
    (h1 : (⟨2, ![4096, 1024]⟩ : Shape).Transposes [1, 0] ⟨2, ![1024, 4096]⟩)
    (h2 : (⟨2, ![1024, 4096]⟩ : Shape).Transposes [1, 0] ⟨2, ![4096, 1024]⟩)
    (hg : (⟨1, ![1024]⟩ : Shape).ShapeCasts ⟨2, ![1, 1024]⟩)
    (ho : (⟨2, ![32768, 1024]⟩ : Shape).ShapeCasts ⟨3, ![512, 64, 1024]⟩)
    (hb : FTy.bf16.bits < FTy.f32.bits) :
    shapeCast ⟨3, ![512, 64, 1024]⟩
        (Cert.RowSpec.rows (shapeCast ⟨2, ![32768, 1024]⟩ X hx)
          (truncf (F := Ideal) .bf16 (transpose ⟨2, ![1024, 4096]⟩ [1, 0] W1 h1 : FVec Ideal ⟨2, ![1024, 4096]⟩ .f32) hb)
          B1
          (truncf (F := Ideal) .bf16 (transpose ⟨2, ![4096, 1024]⟩ [1, 0] W2 h2 : FVec Ideal ⟨2, ![4096, 1024]⟩ .f32) hb)
          B2 (shapeCast ⟨2, ![1, 1024]⟩ Γ hg) B3) ho
      = Cert.Spec.result X W1 B1 W2 B2 Γ B3 := by
  funext i
  obtain ⟨s, b, d, rfl⟩ : ∃ s b d, i = ix3 s b d := ⟨i 0, i 1, i 2, eq_ix3 i⟩
  rw [unstacked]
  show Cert.Layer.row
      (fun k => shapeCast ⟨2, ![32768, 1024]⟩ X hx (ix2 (stack s b) k))
      (fun h k => (truncf (F := Ideal) .bf16 (transpose ⟨2, ![1024, 4096]⟩ [1, 0] W1 h1 : FVec Ideal ⟨2, ![1024, 4096]⟩ .f32) hb) (ix2 k h))
      (fun h => B1 (ix2 (Cert.RowSpec.bRow (stack s b)) h))
      (fun d h => (truncf (F := Ideal) .bf16 (transpose ⟨2, ![4096, 1024]⟩ [1, 0] W2 h2 : FVec Ideal ⟨2, ![4096, 1024]⟩ .f32) hb) (ix2 h d))
      (fun d => B2 (ix2 (Cert.RowSpec.bRow (stack s b)) d))
      (fun d => shapeCast ⟨2, ![1, 1024]⟩ Γ hg (ix2 (0 : Fin 1) d))
      (fun d => B3 (ix2 (Cert.RowSpec.bRow (stack s b)) d)) d
    = Cert.Layer.row (fun k => X (ix3 s b k)) (fun h k => W1 (ix2 h k)) (fun h => B1 (ix2 b h))
      (fun d h => W2 (ix2 d h)) (fun d => B2 (ix2 b d)) (fun d => Γ (ix1 d)) (fun d => B3 (ix2 b d)) d
  have ex : (fun k => shapeCast ⟨2, ![32768, 1024]⟩ X hx (ix2 (stack s b) k)) = fun k => X (ix3 s b k) :=
    funext fun k => x_stacked X hx s b k
  have e1 : (fun h k => (truncf (F := Ideal) .bf16
      (transpose ⟨2, ![1024, 4096]⟩ [1, 0] W1 h1 : FVec Ideal ⟨2, ![1024, 4096]⟩ .f32) hb) (ix2 k h))
      = fun h k => W1 (ix2 h k) :=
    funext fun h => funext fun k => w1_transposed W1 h1 hb k h
  have e2 : (fun d h => (truncf (F := Ideal) .bf16
      (transpose ⟨2, ![4096, 1024]⟩ [1, 0] W2 h2 : FVec Ideal ⟨2, ![4096, 1024]⟩ .f32) hb) (ix2 h d))
      = fun d h => W2 (ix2 d h) :=
    funext fun d => funext fun h => w2_transposed W2 h2 hb h d
  have eg : (fun d => shapeCast ⟨2, ![1, 1024]⟩ Γ hg (ix2 (0 : Fin 1) d)) = fun d => Γ (ix1 d) :=
    funext fun d => shapeCast_a_1a_apply Γ hg 0 d
  rw [bRow_stack, ex, e1, e2, eg]

end Cert.Relayout

end
-- ==== Proof.RefIsSpec.lean ====
/-
  The reference program computes the specification.

  Read at the index `(s, b, d)`, the reference's last stage is entry `d` of the layer applied to row `(s, b)`
  of the input with the biases of batch element `b`.  The three gathered bias arrays stay closed: they
  enter the specification as they are.  The steps follow the program: the hidden unit, the row before
  normalization, its mean, its variance, and the normalized entry.  Each index map of a layout operation is
  identified with the coordinates it keeps; the two sums start from the zero word, which is `0`.
-/
import proofs.«182033_j11184094839027_2_alg».proof.Proof.Gen.ReferenceIdeal.Read
import proofs.«182033_j11184094839027_2_alg».proof.Proof.Spec
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The index maps at coordinates -/

/-- The left operand of the first contraction is read along row `(s, b)`. -/
theorem lidx21 (s : Fin 512) (b : Fin 64) (h : Fin 4096) (k : Fin 1024) :
    lidx_main_v21 (ix3 s b h) k = ix3 s b k :=
  funext fun a => Fin.ext (by match a with | ⟨0, _⟩ => rfl | ⟨1, _⟩ => rfl | ⟨2, _⟩ => rfl)

/-- The right operand of the first contraction is read along row `h` of the first weight. -/
theorem ridx21 (s : Fin 512) (b : Fin 64) (h : Fin 4096) (k : Fin 1024) :
    ridx_main_v21 (ix3 s b h) k = ix2 h k :=
  funext fun a => Fin.ext (by match a with | ⟨0, _⟩ => rfl | ⟨1, _⟩ => rfl)

/-- The first bias is read at batch element `b`, unit `h`. -/
theorem idx23 (s : Fin 512) (b : Fin 64) (h : Fin 4096) :
    idx_main_v22 (idx_main_v23 (ix3 s b h)) = ix2 b h :=
  funext fun a => Fin.ext (by match a with | ⟨0, _⟩ => rfl | ⟨1, _⟩ => rfl)

/-- The left operand of the second contraction is the hidden row of `(s, b)`. -/
theorem lidx26 (s : Fin 512) (b : Fin 64) (d : Fin 1024) (h : Fin 4096) :
    lidx_main_v26 (ix3 s b d) h = ix3 s b h :=
  funext fun a => Fin.ext (by match a with | ⟨0, _⟩ => rfl | ⟨1, _⟩ => rfl | ⟨2, _⟩ => rfl)

/-- The right operand of the second contraction is read along row `d` of the second weight. -/
theorem ridx26 (s : Fin 512) (b : Fin 64) (d : Fin 1024) (h : Fin 4096) :
    ridx_main_v26 (ix3 s b d) h = ix2 d h :=
  funext fun a => Fin.ext (by match a with | ⟨0, _⟩ => rfl | ⟨1, _⟩ => rfl)

/-- The second bias is read at batch element `b`, entry `d`. -/
theorem idx29 (s : Fin 512) (b : Fin 64) (d : Fin 1024) :
    idx_main_v28 (idx_main_v29 (ix3 s b d)) = ix2 b d :=
  funext fun a => Fin.ext (by match a with | ⟨0, _⟩ => rfl | ⟨1, _⟩ => rfl)

/-- The first row sum runs over row `(s, b)`. -/
theorem idx31 (s : Fin 512) (b : Fin 64) (z : Fin 1) (k : Fin 1024) :
    idx_main_v31 (idx_main_v32 (ix3 s b z)) k = ix3 s b k :=
  funext fun a => Fin.ext (by match a with | ⟨0, _⟩ => rfl | ⟨1, _⟩ => rfl | ⟨2, _⟩ => rfl)

/-- The second row sum runs over row `(s, b)`. -/
theorem idx38 (s : Fin 512) (b : Fin 64) (z : Fin 1) (k : Fin 1024) :
    idx_main_v38 (idx_main_v39 (ix3 s b z)) k = ix3 s b k :=
  funext fun a => Fin.ext (by match a with | ⟨0, _⟩ => rfl | ⟨1, _⟩ => rfl | ⟨2, _⟩ => rfl)

/-- The mean is spread along the row (inside the variance). -/
theorem idx35 (s : Fin 512) (b : Fin 64) (k : Fin 1024) :
    idx_main_v35 (ix3 s b k) = ix3 s b (⟨0, Nat.one_pos⟩ : Fin 1) :=
  funext fun a => Fin.ext (by match a with | ⟨0, _⟩ => rfl | ⟨1, _⟩ => rfl | ⟨2, _⟩ => rfl)

/-- The mean is spread along the row (inside the normalized entry). -/
theorem idx42 (s : Fin 512) (b : Fin 64) (k : Fin 1024) :
    idx_main_v42 (ix3 s b k) = ix3 s b (⟨0, Nat.one_pos⟩ : Fin 1) :=
  funext fun a => Fin.ext (by match a with | ⟨0, _⟩ => rfl | ⟨1, _⟩ => rfl | ⟨2, _⟩ => rfl)

/-- The reciprocal root is spread along the row. -/
theorem idx47 (s : Fin 512) (b : Fin 64) (k : Fin 1024) :
    idx_main_v47 (ix3 s b k) = ix3 s b (⟨0, Nat.one_pos⟩ : Fin 1) :=
  funext fun a => Fin.ext (by match a with | ⟨0, _⟩ => rfl | ⟨1, _⟩ => rfl | ⟨2, _⟩ => rfl)

/-- The scale is read at entry `d`. -/
theorem idx50 (s : Fin 512) (b : Fin 64) (d : Fin 1024) :
    idx_main_v49 (idx_main_v50 (ix3 s b d)) = ix1 d :=
  funext fun a => Fin.ext (by match a with | ⟨0, _⟩ => rfl)

/-- The third bias is read at batch element `b`, entry `d`. -/
theorem idx53 (s : Fin 512) (b : Fin 64) (d : Fin 1024) :
    idx_main_v52 (idx_main_v53 (ix3 s b d)) = ix2 b d :=
  funext fun a => Fin.ext (by match a with | ⟨0, _⟩ => rfl | ⟨1, _⟩ => rfl)

/-! ## The stages at coordinates -/

variable (tid : (⟨S64, .i32⟩ : BufTy).Contents (Elt Ideal)) (X : (⟨S512x64x1024, .f32⟩ : BufTy).Contents (Elt Ideal))
  (W1 : (⟨S4096x1024, .f32⟩ : BufTy).Contents (Elt Ideal)) (b1 : (⟨S16x4096, .f32⟩ : BufTy).Contents (Elt Ideal))
  (W2 : (⟨S1024x4096, .f32⟩ : BufTy).Contents (Elt Ideal)) (b2 : (⟨S16x1024, .f32⟩ : BufTy).Contents (Elt Ideal))
  (lnw : (⟨S1024, .f32⟩ : BufTy).Contents (Elt Ideal)) (lnb : (⟨S16x1024, .f32⟩ : BufTy).Contents (Elt Ideal))

/-- Row `(s, b)` before normalization: the input row, the second contraction of its hidden row, the second bias. -/
abbrev yrow (s : Fin 512) (b : Fin 64) : Fin 1024 → EReal :=
  Cert.Layer.residual (fun k => X (ix3 s b k)) (fun h k => W1 (ix2 h k))
    (fun h => val_main_v6 (F := Ideal) tid b1 (ix2 b h)) (fun d h => W2 (ix2 d h))
    (fun d => val_main_v13 (F := Ideal) tid b2 (ix2 b d))

/-- The rectified stage at `(s, b, h)` is hidden unit `h` of row `(s, b)`. -/
theorem hidden_eq (s : Fin 512) (b : Fin 64) (h : Fin 4096) :
    val_main_v25 (F := Ideal) tid X W1 b1 (ix3 s b h)
      = Cert.Layer.hidden (fun k => X (ix3 s b k)) (fun h k => W1 (ix2 h k))
          (fun h => val_main_v6 (F := Ideal) tid b1 (ix2 b h)) h := by
  rw [val_main_v25_apply, val_main_v24_apply, val_main_v21_apply, val_main_v23_apply, val_main_v22_apply,
    val_main_call0_v0_apply, val_main_call0_cst_apply, idx23]
  unfold Cert.Layer.hidden
  rw [Ideal.maximumf_def, Ideal.addf_def, Ideal.ofBits_def]
  refine congrArg (fun t => max (t + _) _) (Finset.sum_congr rfl fun k _ => ?_)
  rw [lidx21, ridx21]

/-- The stage before normalization at `(s, b, k)` is entry `k` of the row before normalization. -/
theorem residual_eq (s : Fin 512) (b : Fin 64) (k : Fin 1024) :
    val_main_v30 (F := Ideal) tid X W1 b1 W2 b2 (ix3 s b k) = yrow tid X W1 b1 W2 b2 s b k := by
  rw [val_main_v30_apply, val_main_v27_apply, val_main_v26_apply, val_main_v29_apply, val_main_v28_apply, idx29]
  unfold yrow Cert.Layer.residual
  rw [Ideal.addf_def, Ideal.addf_def]
  refine congrArg (fun t => X (ix3 s b k) + t + _) (Finset.sum_congr rfl fun h _ => ?_)
  rw [lidx26, ridx26, hidden_eq]

/-- The mean stage at `(s, b)` is the mean of the row: the sum starts from the zero word. -/
theorem mean_eq (s : Fin 512) (b : Fin 64) (z : Fin 1) :
    val_main_v34 (F := Ideal) tid X W1 b1 W2 b2 (ix3 s b z) = Cert.Layer.mean (yrow tid X W1 b1 W2 b2 s b) := by
  rw [val_main_v34_apply, val_main_v32_apply, val_main_v31_apply, val_main_v33_apply, val_main_cst_5_apply,
    val_main_cst_apply]
  unfold Cert.Layer.mean
  rw [Ideal.hostDivf_def, Ideal.ofBits_def, Ideal.ofBits_def, Ideal.ofBits_zero_f32, zero_add]
  refine congrArg (fun t => Ideal.div t _) (Finset.sum_congr rfl fun k _ => ?_)
  rw [idx31, residual_eq]

/-- The variance stage at `(s, b)` is the mean of the squared deviations of the row from its mean. -/
theorem variance_eq (s : Fin 512) (b : Fin 64) (z : Fin 1) :
    val_main_v41 (F := Ideal) tid X W1 b1 W2 b2 (ix3 s b z) = Cert.Layer.variance (yrow tid X W1 b1 W2 b2 s b) := by
  rw [val_main_v41_apply, val_main_v39_apply, val_main_v38_apply, val_main_v40_apply, val_main_cst_7_apply,
    val_main_cst_6_apply]
  unfold Cert.Layer.variance
  rw [Ideal.hostDivf_def, Ideal.ofBits_def, Ideal.ofBits_def, Ideal.ofBits_zero_f32, zero_add]
  refine congrArg (fun t => Ideal.div t _) (Finset.sum_congr rfl fun k _ => ?_)
  rw [idx38, val_main_v37_apply, val_main_v36_apply, val_main_v35_apply, idx35, mean_eq, residual_eq,
    Ideal.mulf_def, Ideal.subf_def]

/-- The last stage at `(s, b, d)` is entry `d` of the normalized row, scaled and shifted. -/
theorem entry_eq (s : Fin 512) (b : Fin 64) (d : Fin 1024) :
    val_main_v54 (F := Ideal) tid X W1 b1 W2 b2 lnw lnb (ix3 s b d)
      = Cert.Layer.normalize (yrow tid X W1 b1 W2 b2 s b) (fun d => lnw (ix1 d))
          (fun d => val_main_v20 (F := Ideal) tid lnb (ix2 b d)) d := by
  rw [val_main_v54_apply, val_main_v51_apply, val_main_v48_apply, val_main_v43_apply, val_main_v42_apply, idx42,
    val_main_v47_apply, idx47, val_main_v46_apply, val_main_v45_apply, val_main_v44_apply, val_main_cst_8_apply,
    val_main_v50_apply, val_main_v49_apply, idx50, val_main_v53_apply, val_main_v52_apply, idx53,
    residual_eq, mean_eq, variance_eq]
  unfold Cert.Layer.normalize
  rw [Ideal.addf_def, Ideal.mulf_def, Ideal.mulf_def, Ideal.subf_def, Ideal.hostUnary_rsqrt_def, Ideal.addf_def,
    Ideal.ofBits_def]

/-- The reference program's result is the specification's result array. -/
theorem result_eq (tid : (⟨S64, .i32⟩ : BufTy).Contents (Elt Ideal)) (X : (⟨S512x64x1024, .f32⟩ : BufTy).Contents (Elt Ideal))
    (W1 : (⟨S4096x1024, .f32⟩ : BufTy).Contents (Elt Ideal)) (b1 : (⟨S16x4096, .f32⟩ : BufTy).Contents (Elt Ideal))
    (W2 : (⟨S1024x4096, .f32⟩ : BufTy).Contents (Elt Ideal)) (b2 : (⟨S16x1024, .f32⟩ : BufTy).Contents (Elt Ideal))
    (lnw : (⟨S1024, .f32⟩ : BufTy).Contents (Elt Ideal)) (lnb : (⟨S16x1024, .f32⟩ : BufTy).Contents (Elt Ideal)) :
    Read.val_main_v54 (F := Ideal) tid X W1 b1 W2 b2 lnw lnb
      = Cert.Spec.result X W1 (Read.val_main_v6 (F := Ideal) tid b1) W2 (Read.val_main_v13 (F := Ideal) tid b2) lnw
          (Read.val_main_v20 (F := Ideal) tid lnb) := by
  funext i
  obtain ⟨s, b, d, rfl⟩ : ∃ s b d, i = ValueIdx.ix3 s b d := ⟨i 0, i 1, i 2, ValueIdx.eq_ix3 i⟩
  exact entry_eq tid X W1 b1 W2 b2 lnw lnb s b d

end Cert.ReferenceIdeal.RefValue

end
-- ==== Proof.Entry.lean ====
/-
  What the call finds in its operands, and which part of each operand a grid point reads.

  Before the call the host re-lays the arguments: `x` is reshaped to the 32768 × 1024 matrix of stacked rows,
  the two weight matrices are transposed and their format changed, the scale becomes a 1 × 1024 row, and the
  three bias tables are gathered by task. The grid has 32 × 8 points; point `t` is row tile `t / 8` and hidden
  tile `t % 8`. At point `t` the body sees rows `1024 (t / 8) …` of the stacked matrix, columns `512 (t % 8) …`
  of `W₁ᵀ` and of the first bias, rows `512 (t % 8) …` of `W₂ᵀ`, and the other three operands whole.
-/
import proofs.«182033_j11184094839027_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Entry

open Cert.KernelIdeal Cert.KernelIdeal.Gen

variable {F : FTy → Type} [FloatOps F]
variable (m : (ℓ : Loc nD τ sig) → Buf (Elt F) ℓ) (ρ : Dev nD → PrngReg)

/-! ## The operands as the call finds them -/

/-- The index vector the gathers use: a negative task number has 16 added. -/
def taskIdx (tid : (⟨S64, .i32⟩ : BufTy).Contents (Elt F)) : (⟨S64x1, .i32⟩ : BufTy).Contents (Elt F) :=
  broadcastInDim S64x1 ![0] bcast_S64_S64x1_0
    (select (cmpi .slt tid (broadcastInDim S64 ![] bcast_S_S64 (constantI S_ 32 0#32)))
      (addi tid (broadcastInDim S64 ![] bcast_S_S64 (constantI S_ 32 16#32))) tid)

theorem stacked_x (c : Dev nD) :
    (V m c main_v26 : (⟨S32768x1024, .f32⟩ : BufTy).Contents (Elt F))
      = shapeCast S32768x1024 (m ((c : Thread nD τ).loc main_arg1)) shapeCasts_S512x64x1024_S32768x1024 := by
  show StableHlo.after hostOps0 (fun b => m (c, b)) (Proc.devRef .tc main_v26) = _
  after_results <;> rfl

theorem scale_row (c : Dev nD) :
    (V m c main_v25 : (⟨S1x1024, .f32⟩ : BufTy).Contents (Elt F))
      = shapeCast S1x1024 (m ((c : Thread nD τ).loc main_arg6)) shapeCasts_S1024_S1x1024 := by
  show StableHlo.after hostOps0 (fun b => m (c, b)) (Proc.devRef .tc main_v25) = _
  after_results <;> rfl

theorem w1_transposed (c : Dev nD) :
    (V m c main_v22 : (⟨S1024x4096, .bf16⟩ : BufTy).Contents (Elt F))
      = truncf .bf16 (transpose S1024x4096 [1, 0] (m ((c : Thread nD τ).loc main_arg2)) transposes_S4096x1024_S1024x4096_1_0) bitsLt_bf16_f32 := by
  show StableHlo.after hostOps0 (fun b => m (c, b)) (Proc.devRef .tc main_v22) = _
  after_results <;> rfl

theorem w2_transposed (c : Dev nD) :
    (V m c main_v24 : (⟨S4096x1024, .bf16⟩ : BufTy).Contents (Elt F))
      = truncf .bf16 (transpose S4096x1024 [1, 0] (m ((c : Thread nD τ).loc main_arg4)) transposes_S1024x4096_S4096x1024_1_0) bitsLt_bf16_f32 := by
  show StableHlo.after hostOps0 (fun b => m (c, b)) (Proc.devRef .tc main_v24) = _
  after_results <;> rfl

theorem bias1_gathered (c : Dev nD) :
    (V m c main_v6 : (⟨S64x4096, .f32⟩ : BufTy).Contents (Elt F))
      = Host.gather gather_S16x4096_S64x1_S64x4096_1_0_n_n_0_1_14096 (m ((c : Thread nD τ).loc main_arg3))
          (taskIdx (m ((c : Thread nD τ).loc main_arg0))) := by
  show StableHlo.after hostOps0 (fun b => m (c, b)) (Proc.devRef .tc main_v6) = _
  after_results <;> rfl

theorem bias2_gathered (c : Dev nD) :
    (V m c main_v13 : (⟨S64x1024, .f32⟩ : BufTy).Contents (Elt F))
      = Host.gather gather_S16x1024_S64x1_S64x1024_1_0_n_n_0_1_11024 (m ((c : Thread nD τ).loc main_arg5))
          (taskIdx (m ((c : Thread nD τ).loc main_arg0))) := by
  show StableHlo.after hostOps0 (fun b => m (c, b)) (Proc.devRef .tc main_v13) = _
  after_results <;> rfl

set_option maxHeartbeats 2000000 in
theorem bias3_gathered (c : Dev nD) :
    (V m c main_v20 : (⟨S64x1024, .f32⟩ : BufTy).Contents (Elt F))
      = Host.gather gather_S16x1024_S64x1_S64x1024_1_0_n_n_0_1_11024 (m ((c : Thread nD τ).loc main_arg7))
          (taskIdx (m ((c : Thread nD τ).loc main_arg0))) := by
  show StableHlo.after hostOps0 (fun b => m (c, b)) (Proc.devRef .tc main_v20) = _
  after_results <;> rfl

end Cert.KernelIdeal.Entry
end
-- ==== Proof.Pieces.lean ====
/-
  What one step of the body leaves behind, as pure terms of what it loaded.

  The body runs once per pair (row tile, hidden tile). It keeps a running sum in a block that outlives the
  step: at the first hidden tile the block is cleared and then receives the tile's contribution, at every
  later tile the contribution is added to what the block held, and at the last hidden tile the finished sum
  is also turned into the output block (residual, bias, normalization). Each lemma below reads one of these
  stored blocks back as the corresponding arithmetic term of the step's loads.
-/
import proofs.«182033_j11184094839027_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg2 : Memref sig .tc .vmem S1024x1024 .f32) (harg2 : arg2.IsWhole) (arg3 : Memref sig .tc .vmem S1024x512 .bf16) (harg3 : arg3.IsWhole)
  (arg4 : Memref sig .tc .vmem S64x512 .f32) (harg4 : arg4.IsWhole) (arg5 : Memref sig .tc .vmem S512x1024 .bf16) (harg5 : arg5.IsWhole)
  (arg6 : Memref sig .tc .vmem S64x1024 .f32) (harg6 : arg6.IsWhole) (arg7 : Memref sig .tc .vmem S1x1024 .f32) (harg7 : arg7.IsWhole)
  (arg8 : Memref sig .tc .vmem S64x1024 .f32) (harg8 : arg8.IsWhole) (arg9 : Memref sig .tc .vmem S1024x1024 .f32) (harg9 : arg9.IsWhole)
  (arg10 : Memref sig .tc .vmem S1024x1024 .f32) (harg10 : arg10.IsWhole)
  (x0 : Vec F S1024x1024 .f32) (x1 : Vec F S1024x512 .bf16) (x2 : Vec F S64x512 .f32) (x3 : Vec F S512x1024 .bf16)
  (x4 : Vec F S64x1024 .f32) (x5 : Vec F S1x1024 .f32) (x6 : Vec F S64x1024 .f32) (xs0 : Vec F S1024x1024 .f32)

/-- At a middle step the accumulator ends at the step's sum over what it held. -/
theorem scratch_B (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x512) hz, View.ld_unit_zero (S := S64x512) hz, View.ld_unit_zero (S := S512x1024) hz,
    View.ld_unit_zero (S := S64x1024) hz, View.ld_unit_zero (S := S1x1024) hz]

/-- At the last step the accumulator ends the same way, -/
theorem scratch_C (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x512) hz, View.ld_unit_zero (S := S64x512) hz, View.ld_unit_zero (S := S512x1024) hz,
    View.ld_unit_zero (S := S64x1024) hz, View.ld_unit_zero (S := S1x1024) hz]

/-- and the output block is the normalized row block of that final accumulator. -/
theorem out_C (hc0 : ¬cond0_0 i) (hc1 : cond0_1 i) :
    out0_C_7 c i arg2 harg2 arg3 harg3 arg4 harg4 arg5 harg5 arg6 harg6 arg7 harg7 arg8 harg8 arg9 harg9 arg10 harg10 hc0 hc1 x0 x1 x2 x3 x4 x5 x6 xs0 = k0_pay4 x0 (k0_pay3 x0 x1 x2 x3 xs0) x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S1024x1024) _ hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x512) hz, View.ld_unit_zero (S := S64x512) hz, View.ld_unit_zero (S := S512x1024) hz,
    View.ld_unit_zero (S := S64x1024) hz, View.ld_unit_zero (S := S1x1024) hz]

/-- At the first step the accumulator is cleared first: it ends at the step's sum over the zero block. -/
theorem scratch_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5 x6 = k0_pay3 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, harg4.read_unread, harg5.read_unread, harg6.read_unread, harg7.read_unread, harg8.read_unread, harg10.read_unread,
    View.ld_unit_zero (S := S1024x1024) hz, View.ld_unit_zero (S := S1024x512) hz, View.ld_unit_zero (S := S64x512) hz, View.ld_unit_zero (S := S512x1024) hz,
    View.ld_unit_zero (S := S64x1024) hz, View.ld_unit_zero (S := S1x1024) hz]

end Cert.KernelIdeal.Pieces
end
-- ==== Proof.Steps.lean ====
/-
  The running sum from one grid point to the next.

  Grid point `t` is hidden tile `t % 8` of row tile `t / 8`. The block that carries the running sum holds, after
  point `t`: at a first hidden tile (`t % 8 = 0`) the tile's contribution over the zero block; at any later
  tile the contribution over what the point before left. At a last hidden tile (`t % 8 = 7`) the output block
  is the normalized residual of that point's finished sum.
-/
import proofs.«182033_j11184094839027_2_alg».proof.Proof.Gen.KernelIdeal.Frame
import proofs.«182033_j11184094839027_2_alg».proof.Proof.Pieces
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Steps

open Cert.KernelIdeal Cert.KernelIdeal.Gen Cert.KernelIdeal.Pieces

variable {F : FTy → Type} [FloatOps F]
variable (m : (ℓ : Loc nD τ sig) → Buf (Elt F) ℓ) (ρ : Dev nD → PrngReg)

/-- At a first hidden tile the running sum restarts from the zero block. -/
theorem sum_first (c : Dev nD) (t : Fin cfg0.N) (h0 : t.val % 8 = 0) :
    (outsAt0 m c t.val t.isLt).2
      = k0_pay3 (iblk m c 0 t) (iblk m c 1 t) (iblk m c 2 t) (iblk m c 3 t) (k0_pay1 (F := F)) := by
  have h1 : ¬t.val % 8 = 7 := by omega
  rw [outsAt0_A m c t h0 h1]
  dsimp only
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) ((hcond0_0 t).mpr h0) (fun h => h1 ((hcond0_1 t).mp h))

/-- At a later hidden tile it grows from what the point before left. -/
theorem sum_next (c : Dev nD) (t : Fin cfg0.N) (h0 : ¬t.val % 8 = 0) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  by_cases h1 : t.val % 8 = 7
  · rw [outsAt0_C m c t h0 h1]
    dsimp only
    exact scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (fun h => h0 ((hcond0_0 t).mp h)) ((hcond0_1 t).mpr h1)
  · rw [outsAt0_B m c t h0 h1]
    dsimp only
    exact scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (fun h => h0 ((hcond0_0 t).mp h)) (fun h => h1 ((hcond0_1 t).mp h))

/-- At a last hidden tile the output block is computed from the finished sum. -/
theorem out_last (c : Dev nD) (t : Fin cfg0.N) (h1 : t.val % 8 = 7) :
    (outsAt0 m c t.val t.isLt).1
      = k0_pay4 (iblk m c 0 t) (outsAt0 m c t.val t.isLt).2 (iblk m c 4 t) (iblk m c 5 t) (iblk m c 6 t) := by
  have h0 : ¬t.val % 8 = 0 := by omega
  rw [outsAt0_C m c t h0 h1]
  dsimp only
  rw [scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (fun h => h0 ((hcond0_0 t).mp h)) ((hcond0_1 t).mpr h1)]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (fun h => h0 ((hcond0_0 t).mp h)) ((hcond0_1 t).mpr h1)

end Cert.KernelIdeal.Steps
end
-- ==== Proof.Blocks.lean ====
/-
  Which part of each operand a grid point reads.

  The grid has 32 × 8 points; point `t` is row tile `t / 8` and hidden tile `t % 8`. At point `t` the body
  sees rows `1024 (t / 8) …` of the stacked matrix, columns `512 (t % 8) …` of `W₁ᵀ` and of the first bias, rows
  `512 (t % 8) …` of `W₂ᵀ`, and the other three operands whole; it writes rows `1024 (t / 8) …` of the result.
  A block's coordinate along an axis is always (block index) × (block extent) + (coordinate inside the block).
-/
import proofs.«182033_j11184094839027_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ) (ρ : Dev nD → PrngReg)

/-- The block index of every window at every point, decided once over the 256 points. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = t.val % 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 8 ∧ win0_7.index t (1 : Fin 2) = 0 :=
  (by decide +kernel : ∀ t : Fin grid0.N, _)

/-- Rows of the stacked matrix: local row `y 0` at point `t` is row `1024 (t / 8) + y 0`. -/
theorem read_x (c : Dev nD) (t : Fin cfg0.N) (y : S1024x1024.Idx) (i : S32768x1024.Idx)
    (h0 : (i 0).val = t.val / 8 * 1024 + (y 0).val) (h1 : (i 1).val = (y 1).val) :
    (iblk m c 0 t : Vec F S1024x1024 .f32) y = V m c main_v26 i := by
  obtain ⟨e0, e1, -⟩ := idx_facts t
  unfold iblk
  rw [View.read_apply]
  show V m c main_v26 _ = V m c main_v26 i
  refine congrArg (V m c main_v26) (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- Columns of `W₁ᵀ`: local column `y 1` at point `t` is column `512 (t % 8) + y 1`. -/
theorem read_w1 (c : Dev nD) (t : Fin cfg0.N) (y : S1024x512.Idx) (i : S1024x4096.Idx)
    (h0 : (i 0).val = (y 0).val) (h1 : (i 1).val = t.val % 8 * 512 + (y 1).val) :
    (iblk m c 1 t : Vec F S1024x512 .bf16) y = V m c main_v22 i := by
  obtain ⟨-, -, e0, e1, -⟩ := idx_facts t
  unfold iblk
  rw [View.read_apply]
  show V m c main_v22 _ = V m c main_v22 i
  refine congrArg (V m c main_v22) (funext fun a => Fin.ext ?_)
  match a with
  | ⟨0, _⟩ => show win0_1.index t (0 : Fin 2) * 1024 + 1 * (y 0).val = (i 0).val; rw [e0, h0]; omega
  | ⟨1, _⟩ => show win0_1.index t (1 : Fin 2) * 512 + 1 * (y 1).val = (i 1).val; rw [e1, h1]; omega

/-- Columns of the first bias: the same hidden tile. -/
theorem read_b1 (c : Dev nD) (t : Fin cfg0.N) (y : S64x512.Idx) (i : S64x4096.Idx)
    (h0 : (i 0).val = (y 0).val) (h1 : (i 1).val = t.val % 8 * 512 + (y 1).val) :
    (iblk m c 2 t : Vec F S64x512 .f32) y = V m c main_v6 i := by
  obtain ⟨-, -, -, -, e0, e1, -⟩ := idx_facts t
  unfold iblk
  rw [View.read_apply]
  show V m c main_v6 _ = V m c main_v6 i
  refine congrArg (V m c main_v6) (funext fun a => Fin.ext ?_)
  match a with
  | ⟨0, _⟩ => show win0_2.index t (0 : Fin 2) * 64 + 1 * (y 0).val = (i 0).val; rw [e0, h0]; omega
  | ⟨1, _⟩ => show win0_2.index t (1 : Fin 2) * 512 + 1 * (y 1).val = (i 1).val; rw [e1, h1]; omega

/-- Rows of `W₂ᵀ`: local row `y 0` at point `t` is row `512 (t % 8) + y 0`. -/
theorem read_w2 (c : Dev nD) (t : Fin cfg0.N) (y : S512x1024.Idx) (i : S4096x1024.Idx)
    (h0 : (i 0).val = t.val % 8 * 512 + (y 0).val) (h1 : (i 1).val = (y 1).val) :
    (iblk m c 3 t : Vec F S512x1024 .bf16) y = V m c main_v24 i := by
  obtain ⟨-, -, -, -, -, -, e0, e1, -⟩ := idx_facts t
  unfold iblk
  rw [View.read_apply]
  show V m c main_v24 _ = V m c main_v24 i
  refine congrArg (V m c main_v24) (funext fun a => Fin.ext ?_)
  match a with
  | ⟨0, _⟩ => show win0_3.index t (0 : Fin 2) * 512 + 1 * (y 0).val = (i 0).val; rw [e0, h0]; omega
  | ⟨1, _⟩ => show win0_3.index t (1 : Fin 2) * 1024 + 1 * (y 1).val = (i 1).val; rw [e1, h1]; omega

/-- The second bias, whole at every point. -/
theorem read_b2 (c : Dev nD) (t : Fin cfg0.N) (y : S64x1024.Idx) :
    (iblk m c 4 t : Vec F S64x1024 .f32) y = V m c main_v13 y := by
  obtain ⟨-, -, -, -, -, -, -, -, e0, e1, -⟩ := idx_facts t
  unfold iblk
  rw [View.read_apply]
  show V m c main_v13 _ = V m c main_v13 y
  refine congrArg (V m c main_v13) (funext fun a => Fin.ext ?_)
  match a with
  | ⟨0, _⟩ => show win0_4.index t (0 : Fin 2) * 64 + 1 * (y 0).val = (y 0).val; rw [e0]; omega
  | ⟨1, _⟩ => show win0_4.index t (1 : Fin 2) * 1024 + 1 * (y 1).val = (y 1).val; rw [e1]; omega

/-- The scale row, whole at every point. -/
theorem read_scale (c : Dev nD) (t : Fin cfg0.N) (y : S1x1024.Idx) :
    (iblk m c 5 t : Vec F S1x1024 .f32) y = V m c main_v25 y := by
  obtain ⟨-, -, -, -, -, -, -, -, -, -, e0, e1, -⟩ := idx_facts t
  unfold iblk
  rw [View.read_apply]
  show V m c main_v25 _ = V m c main_v25 y
  refine congrArg (V m c main_v25) (funext fun a => Fin.ext ?_)
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-- The third bias, whole at every point. -/
theorem read_b3 (c : Dev nD) (t : Fin cfg0.N) (y : S64x1024.Idx) :
    (iblk m c 6 t : Vec F S64x1024 .f32) y = V m c main_v20 y := by
  obtain ⟨-, -, -, -, -, -, -, -, -, -, -, -, e0, e1, -⟩ := idx_facts t
  unfold iblk
  rw [View.read_apply]
  show V m c main_v20 _ = V m c main_v20 y
  refine congrArg (V m c main_v20) (funext fun a => Fin.ext ?_)
  match a with
  | ⟨0, _⟩ => show win0_6.index t (0 : Fin 2) * 64 + 1 * (y 0).val = (y 0).val; rw [e0]; omega
  | ⟨1, _⟩ => show win0_6.index t (1 : Fin 2) * 1024 + 1 * (y 1).val = (y 1).val; rw [e1]; omega

end Cert.KernelIdeal.Blocks
end
-- ==== Proof.Payloads.lean ====
/-
  The three values the kernel's body stores, read one entry at a time, on the extended reals.

  The body works on a block of 1024 rows, which is 16 consecutive groups of 64 rows: local row `p` belongs to batch
  element `p % 64`. Its reset value is the zero word. Its step value at `(p, d)` is the accumulator there plus, over
  the 512 hidden units of the current tile, `max (∑ k, x (p, k) * W₁ (k, j) + β₁ (p % 64, j)) 0 * W₂ (j, d)`. Its last
  value at `(p, d)` is row `p` of accumulator + input + bias of batch element `p % 64`, normalized (mean and mean
  squared deviation over the 1024 entries of the row, reciprocal root of the latter plus `ε`), scaled by a row of
  1024 numbers and shifted by batch element `p % 64`'s row.

  Each operation that is not entrywise is read at coordinates by one small lemma: regrouping 1024 rows as 16 × 64 and
  back, repeating a 64-row slab over the 16 groups, a vector as a column, a column repeated along its rows, a row sum,
  and the two contractions. The entrywise operations read through definitionally.
-/
import proofs.«182033_j11184094839027_2_alg».proof.Proof.Gen.KernelIdeal.Skeleton
import proofs.«182033_j11184094839027_2_alg».proof.Proof.Layer
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The batch element of local row `p`. -/
abbrev bOf (p : Fin 1024) : Fin 64 := ⟨p.val % 64, Nat.mod_lt _ (by decide)⟩
/-- The group of 64 rows that local row `p` lies in. -/
abbrev gOf (p : Fin 1024) : Fin 16 := ⟨p.val / 64, by have := p.isLt; omega⟩

/-! ## Layout operations at coordinates -/

section Layout
variable {α : Type}

/-- `[1024, n]` regrouped as `[16, 64, n]`: entry `(p / 64, p % 64, j)` is entry `(p, j)`. -/
theorem rows_to_groups {n : ℕ} (x : (⟨2, ![1024, n]⟩ : Shape).Idx → α)
    (h : (⟨2, ![1024, n]⟩ : Shape).ShapeCasts ⟨3, ![16, 64, n]⟩) (p : Fin 1024) (j : Fin n) :
    shapeCast ⟨3, ![16, 64, n]⟩ x h (ix3 (gOf p) (bOf p) j) = x (ix2 p j) :=
  shapeCast_apply x h _ _ (by
    rw [Shape.rowMajor_val_two, Shape.rowMajor_val_three]
    show p.val * n + j.val = (p.val / 64 * 64 + p.val % 64) * n + j.val
    rw [Nat.div_add_mod'])

/-- `[16, 64, n]` flattened to `[1024, n]`: entry `(p, j)` is entry `(p / 64, p % 64, j)`. -/
theorem groups_to_rows {n : ℕ} (x : (⟨3, ![16, 64, n]⟩ : Shape).Idx → α)
    (h : (⟨3, ![16, 64, n]⟩ : Shape).ShapeCasts ⟨2, ![1024, n]⟩) (p : Fin 1024) (j : Fin n) :
    shapeCast ⟨2, ![1024, n]⟩ x h (ix2 p j) = x (ix3 (gOf p) (bOf p) j) :=
  shapeCast_apply x h _ _ (by
    rw [Shape.rowMajor_val_two, Shape.rowMajor_val_three]
    show (p.val / 64 * 64 + p.val % 64) * n + j.val = p.val * n + j.val
    rw [Nat.div_add_mod'])

/-- One `[1, 64, n]` slab repeated over 16 groups: entry `(g, b, j)` is the slab's `(0, b, j)`. -/
theorem slab_broadcast {n : ℕ} (x : (⟨3, ![1, 64, n]⟩ : Shape).Idx → α)
    (h : (⟨3, ![1, 64, n]⟩ : Shape).Broadcasts ⟨3, ![16, 64, n]⟩) (g : Fin 16) (b : Fin 64) (j : Fin n) :
    broadcastTo ⟨3, ![16, 64, n]⟩ x h (ix3 g b j) = x (ix3 (0 : Fin 1) b j) := by
  refine broadcastTo_apply x h (ix3 g b j) (ix3 (0 : Fin 1) b j) fun ax => ?_
  match ax with
  | ⟨0, _⟩ => rfl
  | ⟨1, _⟩ => rfl
  | ⟨2, _⟩ =>
    show j.val = if n = 1 then 0 else j.val
    split
    · have := j.isLt; omega
    · rfl

/-- A vector `[a]` as a column `[a, 1]`: entry `(p, u)` is entry `p`. -/
theorem column_of_vector {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated along the rows to `[a, b]`: entry `(p, c)` is the column's `(p, 0)`. -/
theorem column_broadcast {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two contractions at coordinates -/

theorem first_contraction_lhs0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem first_contraction_lhs1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem first_contraction_rhs0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem first_contraction_rhs1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The first contraction into a zero block: entry `(p, c)` is `∑ k, l (p, k) * r (k, c)`. -/
theorem first_contraction_apply (l : FVec Ideal S1024x1024 .bf16) (r : FVec Ideal S1024x512 .bf16) (p : Fin 1024) (c : Fin 512) :
    matmul dot_S1024x1024_S1024x512_S1024x512_1_0_0_1_n_n none l r (constant (F := Ideal) S1024x512 .f32 0x00000000#32) (ix2 p c)
      = ∑ k : Fin 1024, l (ix2 p k) * r (ix2 k c) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p c) ((contrEquiv1 dot_S1024x1024_S1024x512_S1024x512_1_0_0_1_n_n 1024 rfl rfl).symm k) = ix2 p k :=
    funext fun a => Fin.ext (by
      match a with
      | ⟨0, _⟩ => exact first_contraction_lhs0 _ _
      | ⟨1, _⟩ => exact (first_contraction_lhs1 _ _).trans hk)
  have er : dot_S1024x1024_S1024x512_S1024x512_1_0_0_1_n_n.rhsIdx (ix2 p c) ((contrEquiv1 dot_S1024x1024_S1024x512_S1024x512_1_0_0_1_n_n 1024 rfl rfl).symm k) = ix2 k c :=
    funext fun a => Fin.ext (by
      match a with
      | ⟨0, _⟩ => exact (first_contraction_rhs0 _ _).trans hk
      | ⟨1, _⟩ => exact first_contraction_rhs1 _ _)
  rw [el, er]

theorem second_contraction_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem second_contraction_lhs1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem second_contraction_rhs0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem second_contraction_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The second contraction into a zero block: entry `(p, c)` is `∑ k, l (p, k) * r (k, c)`. -/
theorem second_contraction_apply (l : FVec Ideal S1024x512 .bf16) (r : FVec Ideal S512x1024 .bf16) (p : Fin 1024) (c : Fin 1024) :
    matmul dot_S1024x512_S512x1024_S1024x1024_1_0_0_1_n_n none l r (constant (F := Ideal) S1024x1024 .f32 0x00000000#32) (ix2 p c)
      = ∑ k : Fin 512, l (ix2 p k) * r (ix2 k c) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p c) ((contrEquiv1 dot_S1024x512_S512x1024_S1024x1024_1_0_0_1_n_n 512 rfl rfl).symm k) = ix2 p k :=
    funext fun a => Fin.ext (by
      match a with
      | ⟨0, _⟩ => exact second_contraction_lhs0 _ _
      | ⟨1, _⟩ => exact (second_contraction_lhs1 _ _).trans hk)
  have er : dot_S1024x512_S512x1024_S1024x1024_1_0_0_1_n_n.rhsIdx (ix2 p c) ((contrEquiv1 dot_S1024x512_S512x1024_S1024x1024_1_0_0_1_n_n 512 rfl rfl).symm k) = ix2 k c :=
    funext fun a => Fin.ext (by
      match a with
      | ⟨0, _⟩ => exact (second_contraction_rhs0 _ _).trans hk
      | ⟨1, _⟩ => exact second_contraction_rhs1 _ _)
  rw [el, er]

/-! ## A row sum at a coordinate -/

/-- The sum along axis 1 of a `1024 × 1024` block at row `p` is `∑ k, x (p, k)`. -/
theorem row_sum_apply (x : FVec Ideal S1024x1024 .f32) (hφ : FKind.Formats .f32)
    (hacc : (0x00000000#32 : BitVec 32) = 0x00000000#32) (p : Fin 1024) :
    multiReduction (F := Ideal) .add [1] S1024 x 0x00000000#32 reduces_S1024x1024_S1024 hφ hacc (ix1 p)
      = ∑ k : Fin 1024, x (ix2 p k) := by
  refine (Ideal.multiReduction_add_single x 0x00000000#32 reduces_S1024x1024_S1024 hφ hacc (ix1 p)).trans ?_
  refine Finset.sum_congr rfl fun k _ => congrArg x ?_
  funext a
  match a with
  | ⟨0, _⟩ => rfl
  | ⟨1, _⟩ => rfl

/-! ## The three stored values -/

/-- The reset block is the zero word everywhere. -/
theorem zero_apply (i : S1024x1024.Idx) : k0_pay1 (F := Ideal) i = Cert.Layer.zeroW := by
  unfold k0_pay1
  simp only [shapeCast_self]
  rfl

/-- One step's stored value at `(p, d)`: the accumulator plus this tile's 512 hidden units of row `p`,
    each the rectified affine form of the row, times its weight into column `d`. -/
theorem step_apply (x0 : Vec Ideal S1024x1024 .f32) (x1 : Vec Ideal S1024x512 .bf16) (x2 : Vec Ideal S64x512 .f32)
    (x3 : Vec Ideal S512x1024 .bf16) (acc : Vec Ideal S1024x1024 .f32) (p d : Fin 1024) :
    k0_pay3 (F := Ideal) x0 x1 x2 x3 acc (ix2 p d)
      = acc (ix2 p d) + ∑ j : Fin 512,
          max ((∑ k : Fin 1024, x0 (ix2 p k) * x1 (ix2 k j)) + x2 (ix2 (bOf p) j)) Cert.Layer.zeroW * x3 (ix2 j d) := by
  unfold k0_pay3 k0_pay2
  simp only [shapeCast_self]
  rw [addf_apply, second_contraction_apply]
  refine congrArg (acc (ix2 p d) + ·) (Finset.sum_congr rfl fun j _ => ?_)
  rw [truncf_apply, groups_to_rows, maximumf_apply, addf_apply, broadcast_apply, rows_to_groups,
    first_contraction_apply, slab_broadcast, shapeCast_ab_1ab_apply]
  rfl

/-! ## The last step's value in stages

The normalization step is cut into three stages, each read at a coordinate on its own: a per-batch bias added to
every row (`addBatch`), a row's mean as a column (`colMean`), and the centred, rescaled and scaled block
(`normalized`). -/

/-- A `64 × 1024` bias added to a `1024 × 1024` block seen as 16 groups of 64 rows. -/
def addBatch (y : FVec Ideal S1024x1024 .f32) (b : FVec Ideal S64x1024 .f32) : FVec Ideal S1024x1024 .f32 :=
  shapeCast S1024x1024
    (addf (shapeCast S16x64x1024 y shapeCasts_S1024x1024_S16x64x1024)
      (broadcastTo S16x64x1024 (shapeCast S1x64x1024 b shapeCasts_S64x1024_S1x64x1024) broadcasts_S1x64x1024_S16x64x1024))
    shapeCasts_S16x64x1024_S1024x1024

/-- Row `p` gets the bias of its batch element `p % 64`. -/
theorem addBatch_apply (y : FVec Ideal S1024x1024 .f32) (b : FVec Ideal S64x1024 .f32) (p k : Fin 1024) :
    addBatch y b (ix2 p k) = y (ix2 p k) + b (ix2 (bOf p) k) := by
  unfold addBatch
  rw [groups_to_rows, addf_apply, rows_to_groups, slab_broadcast, shapeCast_ab_1ab_apply]

/-- The row sums of a block divided by the row length, kept as a column. -/
def colMean (y : FVec Ideal S1024x1024 .f32) : FVec Ideal S1024x1 .f32 :=
  divf (shapeCast S1024x1
      (multiReduction (F := Ideal) .add [1] S1024 y 0x00000000#32 reduces_S1024x1024_S1024 (.inl rfl) rfl)
      shapeCasts_S1024_S1024x1)
    (broadcast S1024x1 (Scalar.ofBits (F := Ideal) .f32 0x44800000#32))

/-- Entry `(p, u)` of that column is the mean of row `p`. -/
theorem colMean_apply (y : FVec Ideal S1024x1024 .f32) (p : Fin 1024) (u : Fin 1) :
    colMean y (ix2 p u) = Cert.Layer.mean fun k => y (ix2 p k) := by
  unfold colMean
  rw [divf_apply, column_of_vector, broadcast_apply, row_sum_apply]
  rfl

/-- A block centred by its row means, multiplied by the reciprocal root of its row variances plus `ε`, and scaled
    column by column by a `1 × 1024` row. -/
def normalized (y : FVec Ideal S1024x1024 .f32) (g : FVec Ideal S1x1024 .f32) : FVec Ideal S1024x1024 .f32 :=
  mulf
    (mulf (subf y (broadcastTo S1024x1024 (colMean y) broadcasts_S1024x1_S1024x1024))
      (broadcastTo S1024x1024
        (rsqrt (addf
          (colMean (mulf (subf y (broadcastTo S1024x1024 (colMean y) broadcasts_S1024x1_S1024x1024))
            (subf y (broadcastTo S1024x1024 (colMean y) broadcasts_S1024x1_S1024x1024))))
          (broadcast S1024x1 (Scalar.ofBits (F := Ideal) .f32 0x3727C5AC#32))))
        broadcasts_S1024x1_S1024x1024))
    (broadcastTo S1024x1024 g broadcasts_S1x1024_S1024x1024)

/-- Entry `(p, d)` is the normalized row `p` at `d`, before the shift. -/
theorem normalized_apply (y : FVec Ideal S1024x1024 .f32) (g : FVec Ideal S1x1024 .f32) (p d : Fin 1024) :
    normalized y g (ix2 p d)
      = (y (ix2 p d) - Cert.Layer.mean fun k => y (ix2 p k))
          * Ideal.rsqrt (Cert.Layer.variance (fun k => y (ix2 p k)) + Cert.Layer.epsW) * g (ix2 (0 : Fin 1) d) := by
  unfold normalized
  rw [mulf_apply, mulf_apply, subf_apply, column_broadcast, colMean_apply, column_broadcast,
    broadcastTo_1b_ab_apply]
  refine congrArg (fun t => (y (ix2 p d) - Cert.Layer.mean fun k => y (ix2 p k)) * t * g (ix2 (0 : Fin 1) d)) ?_
  show Ideal.rsqrt (colMean _ (ix2 p (0 : Fin 1)) + Cert.Layer.epsW) = _
  rw [colMean_apply]
  refine congrArg (fun t => Ideal.rsqrt (t + Cert.Layer.epsW)) ?_
  unfold Cert.Layer.variance
  refine congrArg (fun t => Ideal.div t Cert.Layer.lenW) (Finset.sum_congr rfl fun k _ => ?_)
  beta_reduce
  rw [mulf_apply, subf_apply, column_broadcast, colMean_apply]

/-- The last step's stored value is these stages composed. -/
theorem pay4_eq_stages (x0 acc : Vec Ideal S1024x1024 .f32) (x4 : Vec Ideal S64x1024 .f32) (x5 : Vec Ideal S1x1024 .f32)
    (x6 : Vec Ideal S64x1024 .f32) :
    k0_pay4 (F := Ideal) x0 acc x4 x5 x6 = addBatch (normalized (addBatch (addf acc x0) x4) x5) x6 := by
  unfold k0_pay4 k0_pay2
  simp only [shapeCast_self]
  rfl

/-- The last step's stored value at `(p, d)`: row `p` of the accumulator plus the input row plus its batch
    element's bias, normalized, scaled by the `1 × 1024` row and shifted by its batch element's row. -/
theorem final_apply (x0 acc : Vec Ideal S1024x1024 .f32) (x4 : Vec Ideal S64x1024 .f32) (x5 : Vec Ideal S1x1024 .f32)
    (x6 : Vec Ideal S64x1024 .f32) (p d : Fin 1024) :
    k0_pay4 (F := Ideal) x0 acc x4 x5 x6 (ix2 p d)
      = Cert.Layer.normalize (fun k => acc (ix2 p k) + x0 (ix2 p k) + x4 (ix2 (bOf p) k))
          (fun k => x5 (ix2 (0 : Fin 1) k)) (fun k => x6 (ix2 (bOf p) k)) d := by
  have hY : (fun k => addBatch (addf acc x0) x4 (ix2 p k))
      = fun k => acc (ix2 p k) + x0 (ix2 p k) + x4 (ix2 (bOf p) k) :=
    funext fun k => by rw [addBatch_apply, addf_apply]
  rw [pay4_eq_stages, addBatch_apply, normalized_apply, hY, addBatch_apply, addf_apply]
  rfl

end Cert.KernelIdeal.Pay

end
-- ==== Proof.Accumulate.lean ====
/-
  The running sum over the hidden tiles is the second contraction, and the output block is a block of rows of
  the stacked result.

  At grid point `t` (row tile `t / 8`, hidden tile `t % 8`) the body adds to the running sum, at local entry
  `(p, d)`, the 512 terms `hidden h * W₂ d h` with `h` in the tile: the terms of the second contraction of row
  `1024 (t / 8) + p` whose hidden index lies in `512 (t % 8) …`. After the tile `j` of a row tile the sum holds the first
  `j + 1` tiles (induction on `j`), after the last all 4096 terms: addition on the extended reals is associative and
  commutative, which is all the regrouping uses. The output block written at a last tile is then, entry by entry,
  the normalized residual row: `(sum + x) + bias` is `(x + sum) + bias` by commutativity.
-/
import proofs.«182033_j11184094839027_2_alg».proof.Proof.Gen.KernelIdeal.Frame
import proofs.«182033_j11184094839027_2_alg».proof.Proof.Steps
import proofs.«182033_j11184094839027_2_alg».proof.Proof.Blocks
import proofs.«182033_j11184094839027_2_alg».proof.Proof.Payloads
import proofs.«182033_j11184094839027_2_alg».proof.Proof.RowSpec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pay Cert.KernelIdeal.Steps Cert.KernelIdeal.Blocks
open Idealize.ShloMosaic.ValueIdx Finset

variable (m : (ℓ : Loc nD τ sig) → Buf (Elt Ideal) ℓ)

/-- The stacked row of local row `p` in row tile `q`. -/
abbrev rowOf (q : ℕ) (p : Fin 1024) : Fin 32768 := ⟨(q * 1024 + p.val) % 32768, Nat.mod_lt _ (by decide)⟩

/-- The operands as the call finds them, as plain functions of coordinates. -/
abbrev xRow (c : Dev nD) (r : Fin 32768) : Fin 1024 → EReal := fun k => (V m c main_v26 : S32768x1024.Idx → EReal) (ix2 r k)
abbrev w1 (c : Dev nD) : Fin 4096 → Fin 1024 → EReal := fun h k => (V m c main_v22 : S1024x4096.Idx → EReal) (ix2 k h)
abbrev b1Row (c : Dev nD) (r : Fin 32768) : Fin 4096 → EReal := fun h => (V m c main_v6 : S64x4096.Idx → EReal) (ix2 (Cert.RowSpec.bRow r) h)
abbrev w2 (c : Dev nD) : Fin 1024 → Fin 4096 → EReal := fun d h => (V m c main_v24 : S4096x1024.Idx → EReal) (ix2 h d)

/-- Term `h` of the second contraction of row `r`, entry `d`. -/
abbrev term (c : Dev nD) (r : Fin 32768) (d : Fin 1024) (h : Fin 4096) : EReal :=
  Cert.Layer.hidden (xRow m c r) (w1 m c) (b1Row m c r) h * w2 m c d h

/-- Tile `s` of that contraction: 512 consecutive terms. -/
abbrev tile (c : Dev nD) (r : Fin 32768) (d : Fin 1024) (s : ℕ) : EReal :=
  ∑ j : Fin 512, (if hh : s * 512 + j.val < 4096 then term m c r d ⟨s * 512 + j.val, hh⟩ else 0)

/-- The blocks the body sees at point `t`, as functions into the extended reals. -/
abbrev blkX (c : Dev nD) (t : Fin cfg0.N) : S1024x1024.Idx → EReal := (iblk m c 0 t : Vec Ideal S1024x1024 .f32)
abbrev blkW1 (c : Dev nD) (t : Fin cfg0.N) : S1024x512.Idx → EReal := (iblk m c 1 t : Vec Ideal S1024x512 .bf16)
abbrev blkB1 (c : Dev nD) (t : Fin cfg0.N) : S64x512.Idx → EReal := (iblk m c 2 t : Vec Ideal S64x512 .f32)
abbrev blkW2 (c : Dev nD) (t : Fin cfg0.N) : S512x1024.Idx → EReal := (iblk m c 3 t : Vec Ideal S512x1024 .bf16)
abbrev blkB2 (c : Dev nD) (t : Fin cfg0.N) : S64x1024.Idx → EReal := (iblk m c 4 t : Vec Ideal S64x1024 .f32)
abbrev blkG (c : Dev nD) (t : Fin cfg0.N) : S1x1024.Idx → EReal := (iblk m c 5 t : Vec Ideal S1x1024 .f32)
abbrev blkB3 (c : Dev nD) (t : Fin cfg0.N) : S64x1024.Idx → EReal := (iblk m c 6 t : Vec Ideal S64x1024 .f32)

/-- What grid point `t` contributes at local entry `(p, d)` is tile `t % 8` of row `1024 (t / 8) + p`. -/
theorem contribution (c : Dev nD) (t : Fin cfg0.N) (p d : Fin 1024) (s q : ℕ) (hs : t.val % 8 = s) (hq : t.val / 8 = q) :
    (∑ j : Fin 512,
        max ((∑ k : Fin 1024, blkX m c t (ix2 p k) * blkW1 m c t (ix2 k j)) + blkB1 m c t (ix2 (bOf p) j)) Cert.Layer.zeroW
          * blkW2 m c t (ix2 j d))
      = tile m c (rowOf q p) d s := by
  subst hs hq
  have hN : t.val < 256 := lt_of_lt_of_eq t.isLt N_0
  refine Finset.sum_congr rfl fun j _ => ?_
  have hj : j.val < 512 := j.isLt
  have hp : p.val < 1024 := p.isLt
  have hh : t.val % 8 * 512 + j.val < 4096 := by omega
  rw [dif_pos hh]
  have hr : (rowOf (t.val / 8) p).val = t.val / 8 * 1024 + p.val := by
    show (t.val / 8 * 1024 + p.val) % 32768 = _; omega
  have hb : ((Cert.RowSpec.bRow (rowOf (t.val / 8) p)) : Fin 64).val = (bOf p).val := by
    show ((t.val / 8 * 1024 + p.val) % 32768) % 64 = p.val % 64; omega
  exact congrArg₂ (· * ·)
    (congrArg (max · Cert.Layer.zeroW)
      (congrArg₂ (· + ·)
        (Finset.sum_congr rfl fun k _ => congrArg₂ (· * ·)
          (read_x m c t (ix2 p k) (ix2 (rowOf (t.val / 8) p) k) hr rfl)
          (read_w1 m c t (ix2 k j) (ix2 k ⟨t.val % 8 * 512 + j.val, hh⟩) rfl rfl))
        (read_b1 m c t (ix2 (bOf p) j) (ix2 (Cert.RowSpec.bRow (rowOf (t.val / 8) p)) ⟨t.val % 8 * 512 + j.val, hh⟩) hb rfl)))
    (read_w2 m c t (ix2 j d) (ix2 ⟨t.val % 8 * 512 + j.val, hh⟩ d) rfl rfl)

/-- The contents after a point do not depend on how the point's number is written. -/
theorem outs_congr (c : Dev nD) (u v : ℕ) (hu : u < cfg0.N) (hv : v < cfg0.N) (e : u = v) :
    outsAt0 m c u hu = outsAt0 m c v hv := by subst e; rfl

/-- After hidden tile `j` of row tile `q` the running sum holds the first `j + 1` tiles. -/
theorem running (c : Dev nD) (q : ℕ) (p d : Fin 1024) (j : ℕ) : j < 8 → ∀ (h : 8 * q + j < cfg0.N),
    (outsAt0 m c (8 * q + j) h).2 (ix2 p d) = ∑ s ∈ range (j + 1), tile m c (rowOf q p) d s := by
  induction j with
  | zero =>
    intro _ h
    have h0 : (⟨8 * q + 0, h⟩ : Fin cfg0.N).val % 8 = 0 := by show (8 * q + 0) % 8 = 0; omega
    refine (congrFun (sum_first m c ⟨8 * q + 0, h⟩ h0) (ix2 p d)).trans ?_
    refine (step_apply (iblk m c 0 ⟨8 * q + 0, h⟩) (iblk m c 1 ⟨8 * q + 0, h⟩) (iblk m c 2 ⟨8 * q + 0, h⟩) (iblk m c 3 ⟨8 * q + 0, h⟩) (k0_pay1 (F := Ideal)) p d).trans ?_
    refine (congrArg₂ (· + ·) (zero_apply (ix2 p d))
      (contribution m c ⟨8 * q + 0, h⟩ p d 0 q h0 (by show (8 * q + 0) / 8 = q; omega))).trans ?_
    rw [sum_range_one]
    show Ideal.ofBits .f32 0x00000000#32 + _ = _
    rw [Ideal.ofBits_zero_f32, zero_add]
  | succ j ih =>
    intro hj h
    have hne : ¬(⟨8 * q + (j + 1), h⟩ : Fin cfg0.N).val % 8 = 0 := by show ¬(8 * q + (j + 1)) % 8 = 0; omega
    refine (congrFun (sum_next m c ⟨8 * q + (j + 1), h⟩ hne) (ix2 p d)).trans ?_
    refine (step_apply (iblk m c 0 ⟨8 * q + (j + 1), h⟩) (iblk m c 1 ⟨8 * q + (j + 1), h⟩) (iblk m c 2 ⟨8 * q + (j + 1), h⟩) (iblk m c 3 ⟨8 * q + (j + 1), h⟩) _ p d).trans ?_
    rw [sum_range_succ _ (j + 1)]
    exact congrArg₂ (· + ·)
      ((congrArg (fun z : Vec Ideal S1024x1024 .f32 × Vec Ideal S1024x1024 .f32 => z.2 (ix2 p d))
          (outs_congr m c _ (8 * q + j) _ (Nat.lt_of_succ_lt h) (by show 8 * q + (j + 1) - 1 = 8 * q + j; omega))).trans
        (ih (Nat.lt_of_succ_lt hj) (Nat.lt_of_succ_lt h)))
      (contribution m c ⟨8 * q + (j + 1), h⟩ p d (j + 1) q (by show (8 * q + (j + 1)) % 8 = j + 1; omega)
        (by show (8 * q + (j + 1)) / 8 = q; omega))

/-- After the last hidden tile of a row tile the running sum is the whole second contraction. -/
theorem finished (c : Dev nD) (t : Fin cfg0.N) (h7 : t.val % 8 = 7) (p k : Fin 1024) :
    (outsAt0 m c t.val t.isLt).2 (ix2 p k) = ∑ h : Fin 4096, term m c (rowOf (t.val / 8) p) k h := by
  have hN : t.val < 256 := lt_of_lt_of_eq t.isLt N_0
  have ht : 8 * (t.val / 8) + 7 = t.val := by omega
  have h' : 8 * (t.val / 8) + 7 < cfg0.N := by rw [ht]; exact t.isLt
  rw [Cert.Layer.sum_tiles (fun h => term m c (rowOf (t.val / 8) p) k h)]
  exact (congrArg (fun z : Vec Ideal S1024x1024 .f32 × Vec Ideal S1024x1024 .f32 => z.2 (ix2 p k))
      (outs_congr m c _ _ t.isLt h' ht.symm)).trans (running m c (t.val / 8) p k 7 (by decide) h')

/-- The output block written at a last hidden tile is a block of rows of the stacked result. -/
theorem out_block (c : Dev nD) (t : Fin cfg0.N) (h7 : t.val % 8 = 7) (y : S1024x1024.Idx) (i : S32768x1024.Idx)
    (h0 : (i 0).val = t.val / 8 * 1024 + (y 0).val) (h1 : (i 1).val = (y 1).val) :
    (outsAt0 m c t.val t.isLt).1 y
      = Cert.RowSpec.rows (V m c main_v26) (V m c main_v22) (V m c main_v6) (V m c main_v24) (V m c main_v13)
          (V m c main_v25) (V m c main_v20) i := by
  obtain ⟨p, d, rfl⟩ : ∃ (p d : Fin 1024), y = ix2 p d := ⟨y 0, y 1, eq_ix2 y⟩
  have hN : t.val < 256 := lt_of_lt_of_eq t.isLt N_0
  have hp : p.val < 1024 := p.isLt
  have hr : (rowOf (t.val / 8) p).val = t.val / 8 * 1024 + p.val := by
    show (t.val / 8 * 1024 + p.val) % 32768 = _; omega
  have hi : i = ix2 (rowOf (t.val / 8) p) d := funext fun a => Fin.ext (by
    match a with
    | ⟨0, _⟩ => exact h0.trans hr.symm
    | ⟨1, _⟩ => exact h1)
  subst hi
  have hb : Cert.RowSpec.bRow (rowOf (t.val / 8) p) = bOf p := Fin.ext (by
    show ((t.val / 8 * 1024 + p.val) % 32768) % 64 = p.val % 64; omega)
  refine (congrFun (out_last m c t h7) (ix2 p d)).trans ?_
  refine (final_apply (iblk m c 0 t) (outsAt0 m c t.val t.isLt).2 (iblk m c 4 t) (iblk m c 5 t) (iblk m c 6 t) p d).trans ?_
  have ey : (fun k : Fin 1024 => (outsAt0 m c t.val t.isLt).2 (ix2 p k) + blkX m c t (ix2 p k) + blkB2 m c t (ix2 (bOf p) k))
      = Cert.Layer.residual (xRow m c (rowOf (t.val / 8) p)) (w1 m c) (b1Row m c (rowOf (t.val / 8) p)) (w2 m c)
          (fun k => (V m c main_v13 : S64x1024.Idx → EReal) (ix2 (Cert.RowSpec.bRow (rowOf (t.val / 8) p)) k)) := funext fun k => by
    unfold Cert.Layer.residual
    have e1 := finished m c t h7 p k
    have e2 : blkX m c t (ix2 p k) = xRow m c (rowOf (t.val / 8) p) k :=
      read_x m c t (ix2 p k) (ix2 (rowOf (t.val / 8) p) k) hr rfl
    have e3 : blkB2 m c t (ix2 (bOf p) k)
        = (V m c main_v13 : S64x1024.Idx → EReal) (ix2 (Cert.RowSpec.bRow (rowOf (t.val / 8) p)) k) :=
      (read_b2 m c t (ix2 (bOf p) k)).trans
        (congrArg (fun b => (V m c main_v13 : S64x1024.Idx → EReal) (ix2 b k)) hb.symm)
    rw [e1, e2, e3]
    exact congrArg (· + _) (add_comm _ _)
  have eg : (fun k : Fin 1024 => blkG m c t (ix2 (0 : Fin 1) k))
      = fun k => (V m c main_v25 : S1x1024.Idx → EReal) (ix2 (0 : Fin 1) k) := funext fun k => read_scale m c t _
  have eb : (fun k : Fin 1024 => blkB3 m c t (ix2 (bOf p) k))
      = fun k => (V m c main_v20 : S64x1024.Idx → EReal) (ix2 (Cert.RowSpec.bRow (rowOf (t.val / 8) p)) k) := funext fun k =>
    (read_b3 m c t (ix2 (bOf p) k)).trans
      (congrArg (fun b => (V m c main_v20 : S64x1024.Idx → EReal) (ix2 b k)) hb.symm)
  exact congrFun (congr (congr (congrArg Cert.Layer.normalize ey) eg) eb) d

end Cert.KernelIdeal.Acc
end
-- ==== Proof.Final.lean ====
/-
  From the blocks the call writes back to the whole result, and the run.

  The grid has 32 × 8 points. The result's window is written back exactly at the points `t` with `t % 8 = 7`, the
  last hidden tile of row tile `t / 8`; what is written there is the staging block, and it lands on rows
  `1024 (t / 8) …` of the stacked 32768 × 1024 result, all 1024 columns. Given that the staging block at such a point
  is, entry by entry, the layer on those rows, the 32 written blocks tile the result, so the result array ends holding
  the layer on every stacked row; the one operation after the call regroups the 32768 rows as 512 × 64.
-/
import proofs.«182033_j11184094839027_2_alg».proof.Proof.Gen.KernelIdeal.Frame
import proofs.«182033_j11184094839027_2_alg».proof.Proof.RowSpec
import proofs.«182033_j11184094839027_2_alg».proof.Proof.Blocks
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- The stacked result as a function of the call's seven operands as the call finds them: entry `(r, d)` is entry
    `d` of the layer on stacked row `r`. -/
abbrev G (c : Dev nD) : S32768x1024.Idx → EReal :=
  Cert.RowSpec.rows (V m c main_v26) (V m c main_v22) (V m c main_v6) (V m c main_v24) (V m c main_v13)
    (V m c main_v25) (V m c main_v20)

/-- What a writing point writes back is its block of `G`: local entry `(y 0, y 1)` at point `t` lands on row
    `1024 (t / 8) + y 0`, column `y 1`. -/
theorem flushed_eq (hblk : ∀ (c : Dev nD) (t : Fin cfg0.N), t.val % 8 = 7 → ∀ (y : S1024x1024.Idx) (i : S32768x1024.Idx),
      (i 0).val = t.val / 8 * 1024 + (y 0).val → (i 1).val = (y 1).val → (outsAt0 m c t.val t.isLt).1 y = G m c i)
    (c : Dev nD) (t : Fin cfg0.N) (hf : (cfg0.win 7).flush t = true) :
    (dats m 0 c).flushed 7 t = ((cfg0.win 7).blk t).view.read (Elt Ideal) (G m c) := by
  have h7 : t.val % 8 = 7 := (flush0_7 t).mp hf
  obtain ⟨-, -, -, -, -, -, -, -, -, -, -, -, -, -, e0, e1⟩ := Blocks.idx_facts t
  show (cfg0.win 7).cut (grid0.coords t) ((dats m 0 c).after 7 t) = _
  rw [after0_7]
  funext y
  rw [View.read_apply]
  refine hblk c t h7 _ _ ?_ ?_
  · show win0_7.index t (0 : Fin 2) * 1024 + 1 * (y 0).val = t.val / 8 * 1024 + (y 0).val
    rw [e0]; omega
  · show win0_7.index t (1 : Fin 2) * 1024 + 1 * (y 1).val = (y 1).val
    rw [e1]; omega

/-- An index of the result is in point `t`'s block iff each coordinate is in the block's range on its axis. -/
theorem mem_blk (t : Fin cfg0.N) (i : S32768x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v27).slice (win0_7.rect t)).set ↔ _
  rw [View.set_slice_whole, Rect.mem_set_unit]
  exact Iff.rfl

/-- Every index of the result is in the block of a writing point: row `r` in that of point `8 (r / 1024) + 7`. -/
theorem cover (i : S32768x1024.Idx) :
    ∃ t : Fin cfg0.N, (cfg0.win 7).flush t = true ∧ i ∈ ((cfg0.win 7).blk t).view.set := by
  have hN : cfg0.N = 256 := N_0
  have hi0 : (i 0).val < 32768 := (i 0).isLt
  have hi1 : (i 1).val < 1024 := (i 1).isLt
  obtain ⟨t, ht⟩ : ∃ t : Fin cfg0.N, t.val = 8 * ((i 0).val / 1024) + 7 := ⟨⟨_, by rw [hN]; omega⟩, rfl⟩
  obtain ⟨-, -, -, -, -, -, -, -, -, -, -, -, -, -, e0, e1⟩ := Blocks.idx_facts t
  refine ⟨t, (flush0_7 t).mpr (by omega), ?_⟩
  rw [mem_blk]
  intro a
  match a with
  | ⟨0, _⟩ =>
    show win0_7.index t (0 : Fin 2) * 1024 ≤ (i 0).val ∧ (i 0).val < win0_7.index t (0 : Fin 2) * 1024 + 1024
    rw [e0]; omega
  | ⟨1, _⟩ =>
    show win0_7.index t (1 : Fin 2) * 1024 ≤ (i 1).val ∧ (i 1).val < win0_7.index t (1 : Fin 2) * 1024 + 1024
    rw [e1]; omega

/-- So the result array ends holding `G`. -/
theorem final_of (hblk : ∀ (c : Dev nD) (t : Fin cfg0.N), t.val % 8 = 7 → ∀ (y : S1024x1024.Idx) (i : S32768x1024.Idx),
      (i 0).val = t.val / 8 * 1024 + (y 0).val → (i 1).val = (y 1).val → (outsAt0 m c t.val t.isLt).1 y = G m c i)
    (c : Dev nD) : (dats m 0 c).arrAt 7 cfg0.N = G m c :=
  (dats m 0 c).arrAt_eq_of_cover 7 (G m c) (flushed_eq m hblk c) cover

/-- The one operation after the call regroups the result array's 32768 rows as 512 × 64. -/
theorem tail_of (hblk : ∀ (c : Dev nD) (t : Fin cfg0.N), t.val % 8 = 7 → ∀ (y : S1024x1024.Idx) (i : S32768x1024.Idx),
      (i 0).val = t.val / 8 * 1024 + (y 0).val → (i 1).val = (y 1).val → (outsAt0 m c t.val t.isLt).1 y = G m c i)
    (c : Dev nD) :
    Pipeline.afterTail₀ cfgs (dats m) 0 (V0 m) [hostOps1] c main_v28
      = shapeCast S512x64x1024 (G m c) shapeCasts_S32768x1024_S512x64x1024 := by
  unfold Pipeline.afterTail₀
  show StableHlo.after hostOps1 _ (Proc.devRef .tc main_v28) = _
  after_results
  rw [(Pipeline.withArrays_arr spec0 launch0.win.arr_inj c _ _ 7).trans (final_of m hblk c)]
  rfl

/-- The run: the program's result is `G` regrouped, and the eight arguments end as they were launched. -/
theorem run_of (hblk : ∀ (c : Dev nD) (t : Fin cfg0.N), t.val % 8 = 7 → ∀ (y : S1024x1024.Idx) (i : S32768x1024.Idx),
      (i 0).val = t.val / 8 * 1024 + (y 0).val → (i 1).val = (y 1).val → (outsAt0 m c t.val t.isLt).1 y = G m c i) :
    θ_run defs (onTc (τ := τ) (main (F := Ideal))) ⟨m, fun _ => 0, ρ⟩ (fun r => ∀ c : Dev nD,
      r.2.mem ((c.tc : Thread nD τ).loc main_v28) = shapeCast S512x64x1024 (G m c) shapeCasts_S32768x1024_S512x64x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h c).2 main_v28 (Pipeline.mem_restRefs_of main_v28 (by decide) (by decide))).trans (tail_of m hblk c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Final

end
-- ==== Proof.GatherAgree.lean ====
/-
  The two programs gather the bias tables by the same term.

  Each program turns the task numbers into a column of table rows by the same host operations (a negative
  number has 16 added) and reads each bias table at that column by the same gather.  The two programs declare
  the same shapes and the same gather records under two names, so each pair of terms agrees by unfolding.
-/
import proofs.«182033_j11184094839027_2_alg».proof.Proof.Gen.ReferenceIdeal.Read
import proofs.«182033_j11184094839027_2_alg».proof.Proof.Entry

noncomputable section

namespace Cert.GatherAgree

open Idealize.ShloMosaic

variable {F : FTy → Type} [FloatOps F]

/-- The column of table rows the first gather reads is the one the kernel's program builds. -/
theorem rows1 (tid : (⟨Cert.KernelIdeal.S64, .i32⟩ : BufTy).Contents (Elt F)) :
    Cert.ReferenceIdeal.Read.val_main_v5 (F := F) tid = Cert.KernelIdeal.Entry.taskIdx tid := by
  unfold Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.KernelIdeal.Entry.taskIdx
  rfl

/-- The column of table rows the second gather reads is the same column. -/
theorem rows2 (tid : (⟨Cert.KernelIdeal.S64, .i32⟩ : BufTy).Contents (Elt F)) :
    Cert.ReferenceIdeal.Read.val_main_v12 (F := F) tid = Cert.KernelIdeal.Entry.taskIdx tid := by
  unfold Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_c_1 Cert.ReferenceIdeal.Read.val_main_c_2
    Cert.KernelIdeal.Entry.taskIdx
  rfl

/-- The column of table rows the third gather reads is the same column. -/
theorem rows3 (tid : (⟨Cert.KernelIdeal.S64, .i32⟩ : BufTy).Contents (Elt F)) :
    Cert.ReferenceIdeal.Read.val_main_v19 (F := F) tid = Cert.KernelIdeal.Entry.taskIdx tid := by
  unfold Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v14 Cert.ReferenceIdeal.Read.val_main_c_3 Cert.ReferenceIdeal.Read.val_main_c_4
    Cert.KernelIdeal.Entry.taskIdx
  rfl

/-- The first bias table, gathered by task, is the same array in both programs. -/
theorem bias1 (tid : (⟨Cert.KernelIdeal.S64, .i32⟩ : BufTy).Contents (Elt F))
    (b1 : (⟨Cert.KernelIdeal.S16x4096, .f32⟩ : BufTy).Contents (Elt F)) :
    Cert.ReferenceIdeal.Read.val_main_v6 (F := F) tid b1
      = Host.gather Cert.KernelIdeal.gather_S16x4096_S64x1_S64x4096_1_0_n_n_0_1_14096 b1
          (Cert.KernelIdeal.Entry.taskIdx tid) := by
  unfold Cert.ReferenceIdeal.Read.val_main_v6
  rw [rows1]
  rfl

/-- The second bias table, gathered by task, is the same array in both programs. -/
theorem bias2 (tid : (⟨Cert.KernelIdeal.S64, .i32⟩ : BufTy).Contents (Elt F))
    (b2 : (⟨Cert.KernelIdeal.S16x1024, .f32⟩ : BufTy).Contents (Elt F)) :
    Cert.ReferenceIdeal.Read.val_main_v13 (F := F) tid b2
      = Host.gather Cert.KernelIdeal.gather_S16x1024_S64x1_S64x1024_1_0_n_n_0_1_11024 b2
          (Cert.KernelIdeal.Entry.taskIdx tid) := by
  unfold Cert.ReferenceIdeal.Read.val_main_v13
  rw [rows2]
  rfl

/-- The third bias table, gathered by task, is the same array in both programs. -/
theorem bias3 (tid : (⟨Cert.KernelIdeal.S64, .i32⟩ : BufTy).Contents (Elt F))
    (b3 : (⟨Cert.KernelIdeal.S16x1024, .f32⟩ : BufTy).Contents (Elt F)) :
    Cert.ReferenceIdeal.Read.val_main_v20 (F := F) tid b3
      = Host.gather Cert.KernelIdeal.gather_S16x1024_S64x1_S64x1024_1_0_n_n_0_1_11024 b3
          (Cert.KernelIdeal.Entry.taskIdx tid) := by
  unfold Cert.ReferenceIdeal.Read.val_main_v20
  rw [rows3]
  rfl

end Cert.GatherAgree

end
-- ==== Proof.lean ====
/-
  The task-specific feed-forward layer: a kernel that runs over a 32 × 8 grid (row tiles × hidden tiles) and a
  plain array program compute the same array on the extended reals.

  Both compute, for every row `(s, b)` of `x`,
    `y = x + relu (x W₁ᵀ + b₁[task b]) W₂ᵀ + b₂[task b]`, then `(y - mean y) * rsqrt (var y + ε) * γ + β[task b]`.
  The kernel stacks the rows into one matrix, transposes the weights and changes their format (the identity on
  the extended reals), cuts the hidden dimension into 8 tiles whose contributions it adds up in a block carried from
  grid point to grid point, and normalizes at the last tile; the array program contracts over all 4096 hidden units
  at once. The two agree because a sum may be taken tile by tile (associativity and commutativity of addition on
  the extended reals, which hold at the infinities too) and because `(sum + x) + b` is `(x + sum) + b`. No
  finiteness of the inputs is used.

  Modules: Layer (one row's arithmetic), Spec (the result array as one function of the arguments), RowSpec (the same
  over the stacked matrix), Relayout (stacking and unstacking), RefIsSpec (the array program is Spec), Payloads
  (the body's stored values at an index), Pieces / Steps (what a grid point leaves), Blocks / Entry (what a grid point
  reads), Accumulate (the carried sum is the contraction), Final (from blocks to the array, and the run),
  GatherAgree (both programs gather the biases by the same term).
-/
import proofs.«182033_j11184094839027_2_alg».proof.Defs
import proofs.«182033_j11184094839027_2_alg».proof.Proof.Gen.Kernel
import proofs.«182033_j11184094839027_2_alg».proof.Proof.Gen.Kernel.Skeleton
import proofs.«182033_j11184094839027_2_alg».proof.Proof.Gen.Kernel.Launch
import proofs.«182033_j11184094839027_2_alg».proof.Proof.Gen.Kernel.Points
import proofs.«182033_j11184094839027_2_alg».proof.Proof.Gen.Kernel.Frame
import proofs.«182033_j11184094839027_2_alg».proof.Proof.Gen.KernelIdeal
import proofs.«182033_j11184094839027_2_alg».proof.Proof.Gen.KernelIdeal.Skeleton
import proofs.«182033_j11184094839027_2_alg».proof.Proof.Gen.KernelIdeal.Launch
import proofs.«182033_j11184094839027_2_alg».proof.Proof.Gen.KernelIdeal.Points
import proofs.«182033_j11184094839027_2_alg».proof.Proof.Gen.KernelIdeal.Frame
import proofs.«182033_j11184094839027_2_alg».proof.Proof.Gen.ReferenceIdeal
import proofs.«182033_j11184094839027_2_alg».proof.Proof.Gen.Pre_finite_inputs
import proofs.«182033_j11184094839027_2_alg».proof.Proof.Gen.ReferenceIdeal.Run
import proofs.«182033_j11184094839027_2_alg».proof.Proof.Gen.ReferenceIdeal.Read
import proofs.«182033_j11184094839027_2_alg».proof.Proof.Spec
import proofs.«182033_j11184094839027_2_alg».proof.Proof.Relayout
import proofs.«182033_j11184094839027_2_alg».proof.Proof.RefIsSpec
import proofs.«182033_j11184094839027_2_alg».proof.Proof.Entry
import proofs.«182033_j11184094839027_2_alg».proof.Proof.Accumulate
import proofs.«182033_j11184094839027_2_alg».proof.Proof.Final
import proofs.«182033_j11184094839027_2_alg».proof.Proof.GatherAgree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The array program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

section Kernel
open Cert.KernelIdeal Cert.KernelIdeal.Gen

/-- What the kernel's result array holds: the specification of the arguments, the biases gathered by task. -/
theorem kernel_value (m : (ℓ : Loc nD τ sig) → Buf (Elt Ideal) ℓ) (c : Dev nD) :
    shapeCast S512x64x1024
        (Cert.RowSpec.rows (V m c main_v26) (V m c main_v22) (V m c main_v6) (V m c main_v24) (V m c main_v13)
          (V m c main_v25) (V m c main_v20)) shapeCasts_S32768x1024_S512x64x1024
      = Cert.Spec.result (m ((c.tc : Thread nD τ).loc main_arg1)) (m ((c.tc : Thread nD τ).loc main_arg2))
          (Host.gather gather_S16x4096_S64x1_S64x4096_1_0_n_n_0_1_14096 (m ((c.tc : Thread nD τ).loc main_arg3))
            (Cert.KernelIdeal.Entry.taskIdx (m ((c.tc : Thread nD τ).loc main_arg0))))
          (m ((c.tc : Thread nD τ).loc main_arg4))
          (Host.gather gather_S16x1024_S64x1_S64x1024_1_0_n_n_0_1_11024 (m ((c.tc : Thread nD τ).loc main_arg5))
            (Cert.KernelIdeal.Entry.taskIdx (m ((c.tc : Thread nD τ).loc main_arg0))))
          (m ((c.tc : Thread nD τ).loc main_arg6))
          (Host.gather gather_S16x1024_S64x1_S64x1024_1_0_n_n_0_1_11024 (m ((c.tc : Thread nD τ).loc main_arg7))
            (Cert.KernelIdeal.Entry.taskIdx (m ((c.tc : Thread nD τ).loc main_arg0)))) := by
  rw [Cert.KernelIdeal.Entry.stacked_x, Cert.KernelIdeal.Entry.w1_transposed, Cert.KernelIdeal.Entry.w2_transposed,
    Cert.KernelIdeal.Entry.bias1_gathered, Cert.KernelIdeal.Entry.bias2_gathered, Cert.KernelIdeal.Entry.bias3_gathered,
    Cert.KernelIdeal.Entry.scale_row]
  exact Cert.Relayout.rows_reshaped _ _ _ _ _ _ _ _ _ _ _ _ _

end Kernel

/-- Run from memories that agree on the arguments, the two programs end with the same result array:
    the specification of the arguments. -/
theorem algebraic : Cert.algebraic_KernelIdeal_ReferenceIdeal := by
  intro m ρ m' ρ' _ hagree
  refine ⟨_, (θ_run Cert.KernelIdeal.defs _ _).mono (fun _ h c => ⟨(h c).1.trans (kernel_value m c), (h c).2⟩)
      (Cert.KernelIdeal.Final.run_of m ρ (Cert.KernelIdeal.Acc.out_block m)), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v54_eq, Cert.ReferenceIdeal.RefValue.result_eq, Cert.GatherAgree.bias1,
    Cert.GatherAgree.bias2, Cert.GatherAgree.bias3, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
